-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S_ : Shape := ⟨0, ![]⟩
abbrev S128x256 : Shape := ⟨2, ![128, 256]⟩
abbrev S256 : Shape := ⟨1, ![256]⟩
abbrev S256x256 : Shape := ⟨2, ![256, 256]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  reducesTo_S_S_d : S_.ReducesTo [] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_arg8 : FVec F S256 .f32) (main_arg14 : FVec F S256 .f32) (main_arg15 : FVec F S128x256 .f32) (main_v67 : IVec S_ 1) : IVec S_ 1 :=
  let main_v68 : FVec F S128x256 .f32 := Host.absf main_arg15
  let main_cst_26 : FVec F S_ .f32 := constant S_ .f32 0x7F800000#32
  let main_v69 : FVec F S128x256 .f32 := broadcastInDim S128x256 ![] bcast_S_S128x256 main_cst_26
  let main_v70 : IVec S128x256 1 := cmpf .olt main_v68 main_v69
  let main_c_27 : IVec S_ 1 := constantI S_ 1 1#1
  let main_v71 : IVec S_ 1 := (fun x v => Host.reduce IntOp.andi x v reducesTo_S128x256_S_d0_1 h_S_) main_v70 main_c_27
  let main_v72 : IVec S_ 1 := andi main_v67 main_v71
  let main_cst_28 : FVec F S_ .f32 := constant S_ .f32 0x00000000#32
  let main_v73 : FVec F S256 .f32 := broadcastInDim S256 ![] bcast_S_S256 main_cst_28
  let main_v74 : IVec S256 1 := cmpf .oge main_arg8 main_v73
  let main_c_29 : IVec S_ 1 := constantI S_ 1 1#1
  let main_v75 : IVec S_ 1 := (fun x v => Host.reduce IntOp.andi x v reducesTo_S256_S_d0 h_S_) main_v74 main_c_29
  let main_v76 : IVec S_ 1 := andi main_v72 main_v75
  let main_cst_30 : FVec F S_ .f32 := constant S_ .f32 0x00000000#32
  let main_v77 : FVec F S256 .f32 := broadcastInDim S256 ![] bcast_S_S256 main_cst_30
  let main_v78 : IVec S256 1 := cmpf .oge main_arg14 main_v77
  let main_c_31 : IVec S_ 1 := constantI S_ 1 1#1
  let main_v79 : IVec S_ 1 := (fun x v => Host.reduce IntOp.andi x v reducesTo_S256_S_d0 h_S_) main_v78 main_c_31
  let main_v80 : IVec S_ 1 := andi main_v76 main_v79
  main_v80

def fn_part3 {F : FTy → Type} [FloatOps F] (main_arg8 : FVec F S256 .f32) (main_arg12 : FVec F S256 .f32) (main_arg13 : FVec F S256 .f32) (main_arg14 : FVec F S256 .f32) (main_arg15 : FVec F S128x256 .f32) (main_v47 : IVec S_ 1) (main_v50 : IVec S256 1) : IVec S_ 1 :=
  let main_c_19 : IVec S_ 1 := constantI S_ 1 1#1
  let main_v51 : IVec S_ 1 := (fun x v => Host.reduce IntOp.andi x v reducesTo_S256_S_d0 h_S_) main_v50 main_c_19
  let main_v52 : IVec S_ 1 := andi main_v47 main_v51
  let main_v53 : FVec F S256 .f32 := Host.absf main_arg12
  let main_cst_20 : FVec F S_ .f32 := constant S_ .f32 0x7F800000#32
  let main_v54 : FVec F S256 .f32 := broadcastInDim S256 ![] bcast_S_S256 main_cst_20
  let main_v55 : IVec S256 1 := cmpf .olt main_v53 main_v54
  let main_c_21 : IVec S_ 1 := constantI S_ 1 1#1
  let main_v56 : IVec S_ 1 := (fun x v => Host.reduce IntOp.andi x v reducesTo_S256_S_d0 h_S_) main_v55 main_c_21
  let main_v57 : IVec S_ 1 := andi main_v52 main_v56
  let main_v58 : FVec F S256 .f32 := Host.absf main_arg13
  let main_cst_22 : FVec F S_ .f32 := constant S_ .f32 0x7F800000#32
  let main_v59 : FVec F S256 .f32 := broadcastInDim S256 ![] bcast_S_S256 main_cst_22
  let main_v60 : IVec S256 1 := cmpf .olt main_v58 main_v59
  let main_c_23 : IVec S_ 1 := constantI S_ 1 1#1
  let main_v61 : IVec S_ 1 := (fun x v => Host.reduce IntOp.andi x v reducesTo_S256_S_d0 h_S_) main_v60 main_c_23
  let main_v62 : IVec S_ 1 := andi main_v57 main_v61
  let main_v63 : FVec F S256 .f32 := Host.absf main_arg14
  let main_cst_24 : FVec F S_ .f32 := constant S_ .f32 0x7F800000#32
  let main_v64 : FVec F S256 .f32 := broadcastInDim S256 ![] bcast_S_S256 main_cst_24
  let main_v65 : IVec S256 1 := cmpf .olt main_v63 main_v64
  let main_c_25 : IVec S_ 1 := constantI S_ 1 1#1
  let main_v66 : IVec S_ 1 := (fun x v => Host.reduce IntOp.andi x v reducesTo_S256_S_d0 h_S_) main_v65 main_c_25
  let main_v67 : IVec S_ 1 := andi main_v62 main_v66
  fn_part4 (F := F) main_arg8 main_arg14 main_arg15 main_v67

def fn_part2 {F : FTy → Type} [FloatOps F] (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S128x256 .f32) (main_v32 : IVec S_ 1) (main_v33 : FVec F S256 .f32) : IVec S_ 1 :=
  let main_cst_12 : FVec F S_ .f32 := constant S_ .f32 0x7F800000#32
  let main_v34 : FVec F S256 .f32 := broadcastInDim S256 ![] bcast_S_S256 main_cst_12
  let main_v35 : IVec S256 1 := cmpf .olt main_v33 main_v34
  let main_c_13 : IVec S_ 1 := constantI S_ 1 1#1
  let main_v36 : IVec S_ 1 := (fun x v => Host.reduce IntOp.andi x v reducesTo_S256_S_d0 h_S_) main_v35 main_c_13
  let main_v37 : IVec S_ 1 := andi main_v32 main_v36
  let main_v38 : FVec F S256x256 .f32 := Host.absf main_arg9
  let main_cst_14 : FVec F S_ .f32 := constant S_ .f32 0x7F800000#32
  let main_v39 : FVec F S256x256 .f32 := broadcastInDim S256x256 ![] bcast_S_S256x256 main_cst_14
  let main_v40 : IVec S256x256 1 := cmpf .olt main_v38 main_v39
  let main_c_15 : IVec S_ 1 := constantI S_ 1 1#1
  let main_v41 : IVec S_ 1 := (fun x v => Host.reduce IntOp.andi x v reducesTo_S256x256_S_d0_1 h_S_) main_v40 main_c_15
  let main_v42 : IVec S_ 1 := andi main_v37 main_v41
  let main_v43 : FVec F S256 .f32 := Host.absf main_arg10
  let main_cst_16 : FVec F S_ .f32 := constant S_ .f32 0x7F800000#32
  let main_v44 : FVec F S256 .f32 := broadcastInDim S256 ![] bcast_S_S256 main_cst_16
  let main_v45 : IVec S256 1 := cmpf .olt main_v43 main_v44
  let main_c_17 : IVec S_ 1 := constantI S_ 1 1#1
  let main_v46 : IVec S_ 1 := (fun x v => Host.reduce IntOp.andi x v reducesTo_S256_S_d0 h_S_) main_v45 main_c_17
  let main_v47 : IVec S_ 1 := andi main_v42 main_v46
  let main_v48 : FVec F S256 .f32 := Host.absf main_arg11
  let main_cst_18 : FVec F S_ .f32 := constant S_ .f32 0x7F800000#32
  let main_v49 : FVec F S256 .f32 := broadcastInDim S256 ![] bcast_S_S256 main_cst_18
  let main_v50 : IVec S256 1 := cmpf .olt main_v48 main_v49
  fn_part3 (F := F) main_arg8 main_arg12 main_arg13 main_arg14 main_arg15 main_v47 main_v50

def fn_part1 {F : FTy → Type} [FloatOps F] (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S128x256 .f32) (main_v12 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v12 main_v16
  let main_v18 : FVec F S256 .f32 := Host.absf main_arg5
  let main_cst_6 : FVec F S_ .f32 := constant S_ .f32 0x7F800000#32
  let main_v19 : FVec F S256 .f32 := broadcastInDim S256 ![] bcast_S_S256 main_cst_6
  let main_v20 : IVec S256 1 := cmpf .olt main_v18 main_v19
  let main_c_7 : IVec S_ 1 := constantI S_ 1 1#1
  let main_v21 : IVec S_ 1 := (fun x v => Host.reduce IntOp.andi x v reducesTo_S256_S_d0 h_S_) main_v20 main_c_7
  let main_v22 : IVec S_ 1 := andi main_v17 main_v21
  let main_v23 : FVec F S256 .f32 := Host.absf main_arg6
  let main_cst_8 : FVec F S_ .f32 := constant S_ .f32 0x7F800000#32
  let main_v24 : FVec F S256 .f32 := broadcastInDim S256 ![] bcast_S_S256 main_cst_8
  let main_v25 : IVec S256 1 := cmpf .olt main_v23 main_v24
  let main_c_9 : IVec S_ 1 := constantI S_ 1 1#1
  let main_v26 : IVec S_ 1 := (fun x v => Host.reduce IntOp.andi x v reducesTo_S256_S_d0 h_S_) main_v25 main_c_9
  let main_v27 : IVec S_ 1 := andi main_v22 main_v26
  let main_v28 : FVec F S256 .f32 := Host.absf main_arg7
  let main_cst_10 : FVec F S_ .f32 := constant S_ .f32 0x7F800000#32
  let main_v29 : FVec F S256 .f32 := broadcastInDim S256 ![] bcast_S_S256 main_cst_10
  let main_v30 : IVec S256 1 := cmpf .olt main_v28 main_v29
  let main_c_11 : IVec S_ 1 := constantI S_ 1 1#1
  let main_v31 : IVec S_ 1 := (fun x v => Host.reduce IntOp.andi x v reducesTo_S256_S_d0 h_S_) main_v30 main_c_11
  let main_v32 : IVec S_ 1 := andi main_v27 main_v31
  let main_v33 : FVec F S256 .f32 := Host.absf main_arg8
  fn_part2 (F := F) main_arg8 main_arg9 main_arg10 main_arg11 main_arg12 main_arg13 main_arg14 main_arg15 main_v32 main_v33

def fn {F : FTy → Type} [FloatOps F] (main_arg0 : FVec F S40000x128 .f32) (main_arg1 : IVec S2x640000 32) (main_arg2 : FVec F S_ .f32) (main_arg3 : FVec F S128x256 .f32) (main_arg4 : FVec F S256 .f32) (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S128x256 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S128x256 .f32 := Host.absf main_arg3
  let main_cst_2 : FVec F S_ .f32 := constant S_ .f32 0x7F800000#32
  let main_v9 : FVec F S128x256 .f32 := broadcastInDim S128x256 ![] bcast_S_S128x256 main_cst_2
  let main_v10 : IVec S128x256 1 := cmpf .olt main_v8 main_v9
  let main_c_3 : IVec S_ 1 := constantI S_ 1 1#1
  let main_v11 : IVec S_ 1 := (fun x v => Host.reduce IntOp.andi x v reducesTo_S128x256_S_d0_1 h_S_) main_v10 main_c_3
  let main_v12 : IVec S_ 1 := andi main_v7 main_v11
  let main_v13 : FVec F S256 .f32 := Host.absf main_arg4
  let main_cst_4 : FVec F S_ .f32 := constant S_ .f32 0x7F800000#32
  let main_v14 : FVec F S256 .f32 := broadcastInDim S256 ![] bcast_S_S256 main_cst_4
  let main_v15 : IVec S256 1 := cmpf .olt main_v13 main_v14
  let main_c_5 : IVec S_ 1 := constantI S_ 1 1#1
  fn_part1 (F := F) main_arg5 main_arg6 main_arg7 main_arg8 main_arg9 main_arg10 main_arg11 main_arg12 main_arg13 main_arg14 main_arg15 main_v12 main_v15 main_c_5
-- ==== Kernel.lean ====
abbrev S40000x128 : Shape := ⟨2, ![40000, 128]⟩
abbrev S2x640000 : Shape := ⟨2, ![2, 640000]⟩
abbrev S_ : Shape := ⟨0, ![]⟩
abbrev S128x256 : Shape := ⟨2, ![128, 256]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S640000x1 : Shape := ⟨2, ![640000, 1]⟩
abbrev S640000x128 : Shape := ⟨2, ![640000, 128]⟩
abbrev S1x1 : Shape := ⟨2, ![1, 1]⟩
abbrev S1x256 : Shape := ⟨2, ![1, 256]⟩
abbrev S40000x256 : Shape := ⟨2, ![40000, 256]⟩
abbrev S4000x128 : Shape := ⟨2, ![4000, 128]⟩
abbrev S4000x256 : Shape := ⟨2, ![4000, 256]⟩

abbrev nBuf : Space → Nat
  | .hbm => 64
  | .vmem => 12
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S_, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S128x256, .f32⟩
  | .hbm, ⟨16, _⟩ => ⟨S1x640000, .i32⟩
  | .hbm, ⟨17, _⟩ => ⟨S640000, .i32⟩
  | .hbm, ⟨18, _⟩ => ⟨S1x640000, .i32⟩
  | .hbm, ⟨19, _⟩ => ⟨S640000, .i32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S_, .f32⟩
  | .hbm, ⟨30, _⟩ => ⟨S40000x128, .f32⟩
  | .hbm, ⟨31, _⟩ => ⟨S640000x1, .i32⟩
  | .hbm, ⟨32, _⟩ => ⟨S40000x128, .f32⟩
  | .hbm, ⟨33, _⟩ => ⟨S1x1, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S1x256, .f32⟩
  | .hbm, ⟨45, _⟩ => ⟨S128x256, .f32⟩
  | .hbm, ⟨46, _⟩ => ⟨S128x256, .f32⟩
  | .hbm, ⟨47, _⟩ => ⟨S128x256, .bf16⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S1x256, .f32⟩
  | .hbm, ⟨52, _⟩ => ⟨S1x256, .f32⟩
  | .hbm, ⟨53, _⟩ => ⟨S256x256, .f32⟩
  | .hbm, ⟨54, _⟩ => ⟨S256x256, .f32⟩
  | .hbm, ⟨55, _⟩ => ⟨S256x256, .bf16⟩
  | .hbm, ⟨56, _⟩ => ⟨S256, .f32⟩
  | .hbm, ⟨57, _⟩ => ⟨S256, .f32⟩
  | .hbm, ⟨58, _⟩ => ⟨S256, .f32⟩
  | .hbm, ⟨59, _⟩ => ⟨S1x256, .f32⟩
  | .hbm, ⟨60, _⟩ => ⟨S128x256, .bf16⟩
  | .hbm, ⟨61, _⟩ => ⟨S40000x128, .bf16⟩
  | .hbm, ⟨62, _⟩ => ⟨S40000x128, .bf16⟩
  | .hbm, ⟨63, _⟩ => ⟨S40000x256, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S1x1, .f32⟩
  | .local _ .vmem, ⟨5, _⟩ => ⟨S128x256, .bf16⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S128x256, .bf16⟩
  | .local _ .vmem, ⟨10, _⟩ => ⟨S4000x256, .f32⟩
  | .local _ .vmem, ⟨11, _⟩ => ⟨S4000x256, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  shapeCasts_S_S1x1 : S_.ShapeCasts S1x1
  bcast_S_S256 : S_.BroadcastsInDim S256 (![] : Fin 0 → Fin S256.rank)
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  bitsLt_bf16_f32 : FTy.bits .bf16 < FTy.bits .f32
  shapeCasts_S256_S1x256 : S256.ShapeCasts S1x256
  bcast_S1x256_S256x256_0_1 : S1x256.BroadcastsInDim S256x256 (![0, 1] : Fin 2 → Fin S256x256.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x128 : S1x1.Broadcasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4000x256_S4000x256_0_0 : ∀ a, (![0, 0] : Fin 2 → Nat) a + S4000x256.size a ≤ S4000x256.size a
  h_S4000x256 : 0 < S4000x256.numel
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x256_S4000x256_1_0_0_1_n_n_wf : DotDims.WF S4000x128 S128x256 S4000x256 [1] [0] [0] [1] [] []
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .bf16 = 32 ∨ (Rect.block (s := S40000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .bf16 = 32 ∨ (Rect.block (s := S40000x128) S4000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .bf16 = 32 ∨ (Rect.block (s := S128x256) S128x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x256.size a ≤ S40000x256.size a
  hwx0_8 : ∀ i : grid0.Coords, EltTy.bits .f32 = 32 ∨ (Rect.block (s := S40000x256) S4000x256.size (cc0_transform_8 i) (hinb0_8 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_v40) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S4000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S_ : Shape := ⟨0, ![]⟩
abbrev S128x256 : Shape := ⟨2, ![128, 256]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S640000x1 : Shape := ⟨2, ![640000, 1]⟩
abbrev S640000x128 : Shape := ⟨2, ![640000, 128]⟩
abbrev S40000x256 : Shape := ⟨2, ![40000, 256]⟩
abbrev S1x256 : Shape := ⟨2, ![1, 256]⟩

abbrev nBuf : Space → Nat
  | .hbm => 89
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S_, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S128x256, .f32⟩
  | .hbm, ⟨16, _⟩ => ⟨S1x640000, .i32⟩
  | .hbm, ⟨17, _⟩ => ⟨S640000, .i32⟩
  | .hbm, ⟨18, _⟩ => ⟨S1x640000, .i32⟩
  | .hbm, ⟨19, _⟩ => ⟨S640000, .i32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S_, .f32⟩
  | .hbm, ⟨30, _⟩ => ⟨S40000x128, .f32⟩
  | .hbm, ⟨31, _⟩ => ⟨S640000x1, .i32⟩
  | .hbm, ⟨32, _⟩ => ⟨S40000x128, .f32⟩
  | .hbm, ⟨33, _⟩ => ⟨S_, .f32⟩
  | .hbm, ⟨34, _⟩ => ⟨S_, .f32⟩
  | .hbm, ⟨35, _⟩ => ⟨S40000x128, .f32⟩
  | .hbm, ⟨36, _⟩ => ⟨S40000x128, .f32⟩
  | .hbm, ⟨37, _⟩ => ⟨S40000x128, .f32⟩
  | .hbm, ⟨38, _⟩ => ⟨S40000x256, .f32⟩
  | .hbm, ⟨39, _⟩ => ⟨S1x256, .f32⟩
  | .hbm, ⟨40, _⟩ => ⟨S40000x256, .f32⟩
  | .hbm, ⟨41, _⟩ => ⟨S40000x256, .f32⟩
  | .hbm, ⟨42, _⟩ => ⟨S1x256, .f32⟩
  | .hbm, ⟨43, _⟩ => ⟨S40000x256, .f32⟩
  | .hbm, ⟨44, _⟩ => ⟨S40000x256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S1x256, .f32⟩
  | .hbm, ⟨50, _⟩ => ⟨S40000x256, .f32⟩
  | .hbm, ⟨51, _⟩ => ⟨S40000x256, .f32⟩
  | .hbm, ⟨52, _⟩ => ⟨S1x256, .f32⟩
  | .hbm, ⟨53, _⟩ => ⟨S40000x256, .f32⟩
  | .hbm, ⟨54, _⟩ => ⟨S40000x256, .f32⟩
  | .hbm, ⟨55, _⟩ => ⟨S1x256, .f32⟩
  | .hbm, ⟨56, _⟩ => ⟨S40000x256, .f32⟩
  | .hbm, ⟨57, _⟩ => ⟨S40000x256, .f32⟩
  | .hbm, ⟨58, _⟩ => ⟨S_, .f32⟩
  | .hbm, ⟨59, _⟩ => ⟨S40000x256, .f32⟩
  | .hbm, ⟨60, _⟩ => ⟨S40000x256, .f32⟩
  | .hbm, ⟨61, _⟩ => ⟨S40000x256, .f32⟩
  | .hbm, ⟨62, _⟩ => ⟨S1x256, .f32⟩
  | .hbm, ⟨63, _⟩ => ⟨S40000x256, .f32⟩
  | .hbm, ⟨64, _⟩ => ⟨S40000x256, .f32⟩
  | .hbm, ⟨65, _⟩ => ⟨S1x256, .f32⟩
  | .hbm, ⟨66, _⟩ => ⟨S40000x256, .f32⟩
  | .hbm, ⟨67, _⟩ => ⟨S40000x256, .f32⟩
  | .hbm, ⟨68, _⟩ => ⟨S_, .f32⟩
  | .hbm, ⟨69, _⟩ => ⟨S256, .f32⟩
  | .hbm, ⟨70, _⟩ => ⟨S256, .f32⟩
  | .hbm, ⟨71, _⟩ => ⟨S256, .f32⟩
  | .hbm, ⟨72, _⟩ => ⟨S1x256, .f32⟩
  | .hbm, ⟨73, _⟩ => ⟨S40000x256, .f32⟩
  | .hbm, ⟨74, _⟩ => ⟨S40000x256, .f32⟩
  | .hbm, ⟨75, _⟩ => ⟨S1x256, .f32⟩
  | .hbm, ⟨76, _⟩ => ⟨S40000x256, .f32⟩
  | .hbm, ⟨77, _⟩ => ⟨S40000x256, .f32⟩
  | .hbm, ⟨78, _⟩ => ⟨S1x256, .f32⟩
  | .hbm, ⟨79, _⟩ => ⟨S40000x256, .f32⟩
  | .hbm, ⟨80, _⟩ => ⟨S40000x256, .f32⟩
  | .hbm, ⟨81, _⟩ => ⟨S_, .f32⟩
  | .hbm, ⟨82, _⟩ => ⟨S40000x256, .f32⟩
  | .hbm, ⟨83, _⟩ => ⟨S40000x256, .f32⟩
  | .hbm, ⟨84, _⟩ => ⟨S40000x256, .f32⟩
  | .hbm, ⟨85, _⟩ => ⟨S40000x256, .f32⟩
  | .hbm, ⟨86, _⟩ => ⟨S_, .f32⟩
  | .hbm, ⟨87, _⟩ => ⟨S40000x256, .f32⟩
  | .hbm, ⟨88, _⟩ => ⟨S40000x256, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call0_cst : Ref sig .tc := ⟨.hbm, 58, rfl⟩
abbrev main_call0_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call2_cst : Ref sig .tc := ⟨.hbm, 86, rfl⟩
abbrev main_call2_v0 : Ref sig .tc := ⟨.hbm, 87, rfl⟩
abbrev main_v60 : Ref sig .tc := ⟨.hbm, 88, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S_S256 : S_.BroadcastsInDim S256 (![] : Fin 0 → Fin S256.rank)
  bcast_S_S40000x256 : S_.BroadcastsInDim S40000x256 (![] : Fin 0 → Fin S40000x256.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x256_S40000x256_1_0_0_1_n_n_wf : DotDims.WF S40000x128 S128x256 S40000x256 [1] [0] [0] [1] [] []
  dot_S40000x256_S256x256_S40000x256_1_0_0_1_n_n_wf : DotDims.WF S40000x256 S256x256 S40000x256 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x256_S40000x256_1_0_0_1_n_n : DotDims S40000x128 S128x256 S40000x256 where
  lhsContracting := [1]
  rhsContracting := [0]
  lhsNonContracting := [0]
  rhsNonContracting := [1]
  lhsBatch := []
  rhsBatch := []
  wf := dot_S40000x128_S128x256_S40000x256_1_0_0_1_n_n_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf

class Facts : Prop extends Facts₀ where

variable [Facts]
-- ==== Proof.KerPay.lean ====
/-
  The kernel body's arithmetic, read at one entry.

  One grid point holds a block of 4000 rows.  From the rows' features `x`, the rows' aggregated messages `a`, the
  scalar `ε₀`, two scaled weight matrices with their bias rows and the residual weights, the body computes, for row
  `p` and output column `j`,

    relu ( relu ( Σ_k relu ( Σ_k' ((1 + ε₀)·x[p,k'] + a[p,k'])·W₁[k',k] + b₁[k] ) · W₂[k,j] + b₂[j] ) + Σ_k x[p,k]·R[k,j] )

  with `relu t = max t 0`.  A change of float format is the identity on extended reals, a matrix product into a
  zero accumulator is the plain sum of products, and a broadcast reads its operand's one row (or one entry).
-/
import proofs.«126358_j90580860273090_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

theorem matmul_128_lhs0 (i : S4000x256.Idx) (q : dot_S4000x128_S128x256_S4000x256_1_0_0_1_n_n.contr.Idx) : (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem matmul_128_rhs1 (i : S4000x256.Idx) (q : dot_S4000x128_S128x256_S4000x256_1_0_0_1_n_n.contr.Idx) : (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- The `[4000, 128] × [128, 256]` product into a zero accumulator, at `(p, j)`: the sum over the 128 shared
    coordinates of row `p` of the left factor times column `j` of the right. -/
theorem matmul_128_apply {φ₁ φ₂ : FTy} (l : FVec Ideal S4000x128 φ₁) (r : FVec Ideal S128x256 φ₂) (p : Fin 4000) (j : Fin 256) :
    matmul dot_S4000x128_S128x256_S4000x256_1_0_0_1_n_n none l r (constant S4000x256 .f32 0x00000000#32) (ix2 p j)
      = ∑ k : Fin 128, l (ix2 p k) * r (ix2 k j) := by
  show FloatOps.matmul dot_S4000x128_S128x256_S4000x256_1_0_0_1_n_n none l r (constant S4000x256 .f32 0x00000000#32) (ix2 p j) = _
  rw [Ideal.matmul_constant_zero_apply, ← Equiv.sum_comp (ValueIdx.contrEquiv1 dot_S4000x128_S128x256_S4000x256_1_0_0_1_n_n 128 rfl rfl).symm]
  refine Finset.sum_congr rfl fun k _ => ?_
  have hk := ValueIdx.contrEquiv1_symm_val dot_S4000x128_S128x256_S4000x256_1_0_0_1_n_n 128 rfl rfl k
  have el : dot_S4000x128_S128x256_S4000x256_1_0_0_1_n_n.lhsIdx (ix2 p j) ((ValueIdx.contrEquiv1 dot_S4000x128_S128x256_S4000x256_1_0_0_1_n_n 128 rfl rfl).symm k) = ix2 p k := funext fun a => Fin.ext (by
    match a with
    | ⟨0, _⟩ => exact matmul_128_lhs0 _ _
    | ⟨1, _⟩ => exact (dot_S4000x128_S128x256_S4000x256_1_0_0_1_n_n.lhsIdx_val_of_single rfl _ _).trans hk)
  have er : dot_S4000x128_S128x256_S4000x256_1_0_0_1_n_n.rhsIdx (ix2 p j) ((ValueIdx.contrEquiv1 dot_S4000x128_S128x256_S4000x256_1_0_0_1_n_n 128 rfl rfl).symm k) = ix2 k j := funext fun a => Fin.ext (by
    match a with
    | ⟨0, _⟩ => exact (dot_S4000x128_S128x256_S4000x256_1_0_0_1_n_n.rhsIdx_val_of_single rfl _ _).trans hk
    | ⟨1, _⟩ => exact matmul_128_rhs1 _ _)
  rw [el, er]

theorem matmul_256_lhs0 (i : S4000x256.Idx) (q : dot_S4000x256_S256x256_S4000x256_1_0_0_1_n_n.contr.Idx) : (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem matmul_256_rhs1 (i : S4000x256.Idx) (q : dot_S4000x256_S256x256_S4000x256_1_0_0_1_n_n.contr.Idx) : (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- The `[4000, 256] × [256, 256]` product into a zero accumulator, at `(p, j)`. -/
theorem matmul_256_apply {φ₁ φ₂ : FTy} (l : FVec Ideal S4000x256 φ₁) (r : FVec Ideal S256x256 φ₂) (p : Fin 4000) (j : Fin 256) :
    matmul dot_S4000x256_S256x256_S4000x256_1_0_0_1_n_n none l r (constant S4000x256 .f32 0x00000000#32) (ix2 p j)
      = ∑ k : Fin 256, l (ix2 p k) * r (ix2 k j) := by
  show FloatOps.matmul dot_S4000x256_S256x256_S4000x256_1_0_0_1_n_n none l r (constant S4000x256 .f32 0x00000000#32) (ix2 p j) = _
  rw [Ideal.matmul_constant_zero_apply, ← Equiv.sum_comp (ValueIdx.contrEquiv1 dot_S4000x256_S256x256_S4000x256_1_0_0_1_n_n 256 rfl rfl).symm]
  refine Finset.sum_congr rfl fun k _ => ?_
  have hk := ValueIdx.contrEquiv1_symm_val dot_S4000x256_S256x256_S4000x256_1_0_0_1_n_n 256 rfl rfl k
  have el : dot_S4000x256_S256x256_S4000x256_1_0_0_1_n_n.lhsIdx (ix2 p j) ((ValueIdx.contrEquiv1 dot_S4000x256_S256x256_S4000x256_1_0_0_1_n_n 256 rfl rfl).symm k) = ix2 p k := funext fun a => Fin.ext (by
    match a with
    | ⟨0, _⟩ => exact matmul_256_lhs0 _ _
    | ⟨1, _⟩ => exact (dot_S4000x256_S256x256_S4000x256_1_0_0_1_n_n.lhsIdx_val_of_single rfl _ _).trans hk)
  have er : dot_S4000x256_S256x256_S4000x256_1_0_0_1_n_n.rhsIdx (ix2 p j) ((ValueIdx.contrEquiv1 dot_S4000x256_S256x256_S4000x256_1_0_0_1_n_n 256 rfl rfl).symm k) = ix2 k j := funext fun a => Fin.ext (by
    match a with
    | ⟨0, _⟩ => exact (dot_S4000x256_S256x256_S4000x256_1_0_0_1_n_n.rhsIdx_val_of_single rfl _ _).trans hk
    | ⟨1, _⟩ => exact matmul_256_rhs1 _ _)
  rw [el, er]

/-- The body's result at row `p`, column `j` of the block. -/
theorem pay_apply (x a : Vec Ideal S4000x128 .bf16) (e : Vec Ideal S1x1 .f32) (w1 : Vec Ideal S128x256 .bf16)
    (b1 : Vec Ideal S1x256 .f32) (w2 : Vec Ideal S256x256 .bf16) (b2 : Vec Ideal S1x256 .f32) (wr : Vec Ideal S128x256 .bf16)
    (p : Fin 4000) (j : Fin 256) :
    k0_pay1 (k0_pay2 x a e w1 b1 w2 b2 wr) (ix2 p j)
      = max (max (∑ k : Fin 256, max (∑ k' : Fin 128,
            ((Ideal.ofBits .f32 0x3F800000#32 + e (ix2 (0 : Fin 1) (0 : Fin 1))) * x (ix2 p k') + a (ix2 p k')) * w1 (ix2 k' k)
              + b1 (ix2 (0 : Fin 1) k)) (Ideal.ofBits .f32 0x00000000#32) * w2 (ix2 k j)
            + b2 (ix2 (0 : Fin 1) j)) (Ideal.ofBits .f32 0x00000000#32)
          + ∑ k : Fin 128, x (ix2 p k) * wr (ix2 k j)) (Ideal.ofBits .f32 0x00000000#32) := by
  unfold k0_pay1 k0_pay2
  dsimp only
  simp only [shapeCast_self, maximumf_apply, addf_apply, mulf_apply, truncf_apply, extf_apply, broadcast_apply,
    matmul_128_apply, matmul_256_apply, broadcastTo_1b_ab_apply, broadcastTo_11_ab_apply, Ideal.ofBits_def]

end Cert.KernelIdeal.Payload

end
-- ==== Proof.LibReals.lean ====
/-
  GENERAL LEMMAS: arrays of extended reals whose every entry is a real number.

  On the extended reals multiplication distributes over addition only away from the infinities, so the
  identities that move a per-column scale across a sum are proved on real numbers.  `IsReal v` says every
  entry of `v` is the image of a real; the lemmas below say the arithmetic operations keep that property
  and give the real each result is the image of; a finite sum of reals, a host gather of a real array and an
  accumulating host scatter of real arrays are real.
-/
import Idealize.ShloMosaic.PureOps.Ideal
import Idealize.ShloMosaic.PureOps.Ideal.Laws

noncomputable section

namespace Cert.Reals

open Idealize.ShloMosaic

/-- Every entry of `v` is a real number. -/
def IsReal {ι : Type} (v : ι → EReal) : Prop := ∀ i, ∃ r : ℝ, v i = (r : EReal)

/-- The image of a finite sum of reals is the sum of the images. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The image of the larger of two reals is the larger of the images. -/
theorem coe_max (a b : ℝ) : ((max a b : ℝ) : EReal) = max (a : EReal) (b : EReal) :=
  (EReal.coe_strictMono.monotone).map_max

/-- The reciprocal square root of a positive real is the real `(√r)⁻¹`. -/
theorem rsqrt_pos {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A finite sum of extended reals that are all reals is a real. -/
theorem sum_isReal {ι : Type} (s : Finset ι) (f : ι → EReal) (hf : ∀ j, ∃ r : ℝ, f j = (r : EReal)) :
    ∃ r : ℝ, ∑ j ∈ s, f j = (r : EReal) := by
  choose g hg using hf
  exact ⟨∑ j ∈ s, g j, by rw [coe_sum]; exact Finset.sum_congr rfl fun j _ => hg j⟩

/-- Every entry of a gathered array is an entry of the operand. -/
theorem gather_isReal {s si t : Shape} {w : Nat} (d : GatherDims s si t) (x : s.Idx → EReal) (idx : IVec si w)
    (hx : IsReal x) : IsReal (Host.gather d x idx) :=
  fun _ => hx _

/-- An accumulating scatter of real updates into a real operand is real: each entry is the operand's plus a finite
    sum of updates. -/
theorem scatterAdd_isReal {s si su : Shape} {w : Nat} (d : ScatterDims s si su) (z : FVec Ideal s .f32) (idx : IVec si w)
    (upd : FVec Ideal su .f32) (hz : IsReal z) (hu : IsReal upd) : IsReal (Host.scatterAdd d z idx upd) := by
  intro i
  unfold Host.scatterAdd
  rw [Ideal.hostScatterAdd_def]
  unfold Ideal.hostScatterAdd
  obtain ⟨r0, h0⟩ := hz i
  obtain ⟨r, hr⟩ := sum_isReal (Finset.univ.filter fun j => d.resultIdx? j idx = some i) upd hu
  exact ⟨r0 + r, by rw [h0, hr, EReal.coe_add]⟩

end Cert.Reals

end
-- ==== Proof.Spec.lean ====
/-
  The two programs' results as formulas, and why they agree.

  Write `relu t = max t 0`, `h₀[n,k] = (1 + ε₀)·x[n,k] + a[n,k]` for the node features plus the aggregated messages,
  and for a layer with weights `W`, bias `b`, and normalisation data `μ` (mean), `v` (variance), `g` (gain), `β` (shift)

    reference layer:   relu ( ((Σ_k h[k]·W[k,j] + b[j]) − μ[j]) · rsqrt(v[j] + ε) · g[j] + β[j] )
    kernel layer:      relu (  Σ_k h[k]·(W[k,j]·s[j]) + ((b[j] − μ[j])·s[j] + β[j]) ),     s[j] = g[j]·rsqrt(v[j] + ε).

  Both programs apply two such layers and end with `relu (h₂[n,j] + Σ_k x[n,k]·R[k,j])`.  The kernel's layer is the
  reference's with the per-column scale `s[j]` moved inside the sum and across the bias: distributivity, which on the
  extended reals holds only away from the infinities.  All inputs are real, and `v[j] ≥ 0` with `ε > 0` makes
  `rsqrt(v[j] + ε)` the real `1/√(v[j] + ε)`, so every quantity is a real and the identity is the one of real numbers.
-/
import proofs.«126358_j90580860273090_2_alg».proof.Proof.LibReals
import Idealize.ShloMosaic.Lib.ValueIdx
import Idealize.ShloMosaic.PureOps.Ideal.Laws

noncomputable section

namespace Cert.Spec

open Idealize.ShloMosaic Idealize.ShloMosaic.ValueIdx Cert.Reals

/-- The pattern of `1e-5` denotes the positive real `10995116 · 2⁻⁴⁰`. -/
theorem eps_eq : Ideal.ofBits .f32 0x3727C5AC#32 = ((10995116 * (2 : ℝ) ^ (-40 : ℤ) : ℝ) : EReal) := by
  simp [Ideal.ofBits, Ideal.ieee, -EReal.coe_mul]

theorem eps_pos : ∃ e : ℝ, 0 < e ∧ Ideal.ofBits .f32 0x3727C5AC#32 = (e : EReal) :=
  ⟨_, by positivity, eps_eq⟩

/-- The pattern of `1.0` denotes a real. -/
theorem one_real : ∃ r : ℝ, Ideal.ofBits .f32 0x3F800000#32 = (r : EReal) :=
  ⟨1, by simp [Ideal.ofBits, Ideal.ieee, -EReal.coe_mul]; norm_num⟩

/-- The pattern of `0.0` denotes a real. -/
theorem zero_real : ∃ r : ℝ, Ideal.ofBits .f32 0x00000000#32 = (r : EReal) :=
  ⟨0, by rw [Ideal.ofBits_zero_f32, EReal.coe_zero]⟩

/-- The reciprocal square root of a nonnegative real plus `ε` is a real. -/
theorem rsqrt_real (v : EReal) (hv : ∃ r : ℝ, v = (r : EReal)) (h0 : (0 : EReal) ≤ v) :
    ∃ s : ℝ, Ideal.rsqrt (v + Ideal.ofBits .f32 0x3727C5AC#32) = (s : EReal) := by
  obtain ⟨r, rfl⟩ := hv
  obtain ⟨e, he, hE⟩ := eps_pos
  have hr : 0 ≤ r := by exact_mod_cast h0
  rw [hE, ← EReal.coe_add, rsqrt_pos (by linarith)]
  exact ⟨_, rfl⟩

/-- ONE LAYER.  For a real input row `h`, real weights `W`, and real `b μ g β` with `v ≥ 0` real: the kernel's
    pre-activation (scale inside the sum and across the bias) and the reference's (scale applied after) are one real. -/
theorem layer {K : ℕ} (h W : Fin K → EReal) (b μ v g β : EReal) (hh : IsReal h) (hW : IsReal W)
    (hb : ∃ r : ℝ, b = (r : EReal)) (hμ : ∃ r : ℝ, μ = (r : EReal)) (hv : ∃ r : ℝ, v = (r : EReal))
    (hg : ∃ r : ℝ, g = (r : EReal)) (hβ : ∃ r : ℝ, β = (r : EReal)) (hv0 : (0 : EReal) ≤ v) :
    ∃ r : ℝ,
      (∑ k, h k * (W k * (g * Ideal.rsqrt (v + Ideal.ofBits .f32 0x3727C5AC#32))))
          + ((b - μ) * (g * Ideal.rsqrt (v + Ideal.ofBits .f32 0x3727C5AC#32)) + β) = (r : EReal)
      ∧ ((∑ k, h k * W k) + b - μ) * Ideal.rsqrt (v + Ideal.ofBits .f32 0x3727C5AC#32) * g + β = (r : EReal) := by
  obtain ⟨s, hs⟩ := rsqrt_real v hv hv0
  choose hr hhr using hh
  choose Wr hWr using hW
  obtain ⟨br, rfl⟩ := hb
  obtain ⟨μr, rfl⟩ := hμ
  obtain ⟨gr, rfl⟩ := hg
  obtain ⟨βr, rfl⟩ := hβ
  rw [hs]
  refine ⟨((∑ k, hr k * Wr k) + br - μr) * s * gr + βr, ?_, ?_⟩
  · have e1 : ∀ k, h k * (W k * ((gr : EReal) * (s : EReal))) = ((hr k * (Wr k * (gr * s)) : ℝ) : EReal) := fun k => by
      rw [hhr k, hWr k, ← EReal.coe_mul, ← EReal.coe_mul, ← EReal.coe_mul]
    rw [Finset.sum_congr rfl fun k _ => e1 k, ← coe_sum, ← EReal.coe_sub, ← EReal.coe_mul, ← EReal.coe_mul, ← EReal.coe_add,
      ← EReal.coe_add]
    congr 1
    have : ∑ k, hr k * (Wr k * (gr * s)) = (∑ k, hr k * Wr k) * (gr * s) := by
      rw [Finset.sum_mul]; exact Finset.sum_congr rfl fun k _ => by ring
    rw [this]; ring
  · have e2 : ∀ k, h k * W k = ((hr k * Wr k : ℝ) : EReal) := fun k => by rw [hhr k, hWr k, ← EReal.coe_mul]
    rw [Finset.sum_congr rfl fun k _ => e2 k, ← coe_sum, ← EReal.coe_add, ← EReal.coe_sub, ← EReal.coe_mul, ← EReal.coe_mul,
      ← EReal.coe_add]

/-- The larger of two reals is a real. -/
theorem max_real (a b : EReal) (ha : ∃ r : ℝ, a = (r : EReal)) (hb : ∃ r : ℝ, b = (r : EReal)) :
    ∃ r : ℝ, max a b = (r : EReal) := by
  obtain ⟨x, rfl⟩ := ha
  obtain ⟨y, rfl⟩ := hb
  exact ⟨max x y, (coe_max x y).symm⟩

/-- The kernel's result at row `n`, column `j`, from the arrays its windows stage, over `N` rows. -/
def kernelAt {N : ℕ} (x a : (⟨2, ![N, 128]⟩ : Shape).Idx → EReal) (e : (⟨2, ![1, 1]⟩ : Shape).Idx → EReal)
    (w1 : (⟨2, ![128, 256]⟩ : Shape).Idx → EReal) (b1 : (⟨2, ![1, 256]⟩ : Shape).Idx → EReal)
    (w2 : (⟨2, ![256, 256]⟩ : Shape).Idx → EReal) (b2 : (⟨2, ![1, 256]⟩ : Shape).Idx → EReal)
    (wr : (⟨2, ![128, 256]⟩ : Shape).Idx → EReal) (n : Fin N) (j : Fin 256) : EReal :=
  max (max (∑ k : Fin 256, max (∑ k' : Fin 128,
        ((Ideal.ofBits .f32 0x3F800000#32 + e (ix2 (0 : Fin 1) (0 : Fin 1))) * x (ix2 n k') + a (ix2 n k')) * w1 (ix2 k' k)
          + b1 (ix2 (0 : Fin 1) k)) (Ideal.ofBits .f32 0x00000000#32) * w2 (ix2 k j)
        + b2 (ix2 (0 : Fin 1) j)) (Ideal.ofBits .f32 0x00000000#32)
      + ∑ k : Fin 128, x (ix2 n k) * wr (ix2 k j)) (Ideal.ofBits .f32 0x00000000#32)

/-- The kernel's result as an array. -/
def kernelOut {N : ℕ} (x a : (⟨2, ![N, 128]⟩ : Shape).Idx → EReal) (e : (⟨2, ![1, 1]⟩ : Shape).Idx → EReal)
    (w1 : (⟨2, ![128, 256]⟩ : Shape).Idx → EReal) (b1 : (⟨2, ![1, 256]⟩ : Shape).Idx → EReal)
    (w2 : (⟨2, ![256, 256]⟩ : Shape).Idx → EReal) (b2 : (⟨2, ![1, 256]⟩ : Shape).Idx → EReal)
    (wr : (⟨2, ![128, 256]⟩ : Shape).Idx → EReal) : (⟨2, ![N, 256]⟩ : Shape).Idx → EReal :=
  fun i => kernelAt x a e w1 b1 w2 b2 wr (i 0) (i 1)

/-- The reference's result at row `n`, column `j`, from the argument arrays and the aggregated messages `a`. -/
def referenceAt {N : ℕ} (x a : (⟨2, ![N, 128]⟩ : Shape).Idx → EReal) (e0 : (⟨0, ![]⟩ : Shape).Idx → EReal)
    (W1 : (⟨2, ![128, 256]⟩ : Shape).Idx → EReal) (b1 g1 β1 μ1 v1 : (⟨1, ![256]⟩ : Shape).Idx → EReal)
    (W2 : (⟨2, ![256, 256]⟩ : Shape).Idx → EReal) (b2 g2 β2 μ2 v2 : (⟨1, ![256]⟩ : Shape).Idx → EReal)
    (R : (⟨2, ![128, 256]⟩ : Shape).Idx → EReal) (n : Fin N) (j : Fin 256) : EReal :=
  max (max (((∑ k : Fin 256, max (((∑ k' : Fin 128,
        ((Ideal.ofBits .f32 0x3F800000#32 + e0 ix0) * x (ix2 n k') + a (ix2 n k')) * W1 (ix2 k' k))
          + b1 (ix1 k) - μ1 (ix1 k)) * Ideal.rsqrt (v1 (ix1 k) + Ideal.ofBits .f32 0x3727C5AC#32) * g1 (ix1 k) + β1 (ix1 k))
        (Ideal.ofBits .f32 0x00000000#32) * W2 (ix2 k j))
      + b2 (ix1 j) - μ2 (ix1 j)) * Ideal.rsqrt (v2 (ix1 j) + Ideal.ofBits .f32 0x3727C5AC#32) * g2 (ix1 j) + β2 (ix1 j))
      (Ideal.ofBits .f32 0x00000000#32)
    + ∑ k : Fin 128, x (ix2 n k) * R (ix2 k j)) (Ideal.ofBits .f32 0x00000000#32)

/-- The reference's result as an array. -/
def referenceOut {N : ℕ} (x a : (⟨2, ![N, 128]⟩ : Shape).Idx → EReal) (e0 : (⟨0, ![]⟩ : Shape).Idx → EReal)
    (W1 : (⟨2, ![128, 256]⟩ : Shape).Idx → EReal) (b1 g1 β1 μ1 v1 : (⟨1, ![256]⟩ : Shape).Idx → EReal)
    (W2 : (⟨2, ![256, 256]⟩ : Shape).Idx → EReal) (b2 g2 β2 μ2 v2 : (⟨1, ![256]⟩ : Shape).Idx → EReal)
    (R : (⟨2, ![128, 256]⟩ : Shape).Idx → EReal) : (⟨2, ![N, 256]⟩ : Shape).Idx → EReal :=
  fun i => referenceAt x a e0 W1 b1 g1 β1 μ1 v1 W2 b2 g2 β2 μ2 v2 R (i 0) (i 1)

/-- THE BRIDGE.  When the kernel's staged arrays are the scaled weights and folded biases of real arguments with
    nonnegative variances, the kernel's result is the reference's. -/
theorem kernelAt_eq_referenceAt {N : ℕ} (x a : (⟨2, ![N, 128]⟩ : Shape).Idx → EReal) (e0 : (⟨0, ![]⟩ : Shape).Idx → EReal)
    (W1 : (⟨2, ![128, 256]⟩ : Shape).Idx → EReal) (b1 g1 β1 μ1 v1 : (⟨1, ![256]⟩ : Shape).Idx → EReal)
    (W2 : (⟨2, ![256, 256]⟩ : Shape).Idx → EReal) (b2 g2 β2 μ2 v2 : (⟨1, ![256]⟩ : Shape).Idx → EReal)
    (R : (⟨2, ![128, 256]⟩ : Shape).Idx → EReal)
    (e : (⟨2, ![1, 1]⟩ : Shape).Idx → EReal) (w1 : (⟨2, ![128, 256]⟩ : Shape).Idx → EReal)
    (c1 : (⟨2, ![1, 256]⟩ : Shape).Idx → EReal) (w2 : (⟨2, ![256, 256]⟩ : Shape).Idx → EReal)
    (c2 : (⟨2, ![1, 256]⟩ : Shape).Idx → EReal)
    (hx : IsReal x) (ha : IsReal a) (he0 : IsReal e0) (hW1 : IsReal W1) (hb1 : IsReal b1) (hg1 : IsReal g1) (hβ1 : IsReal β1)
    (hμ1 : IsReal μ1) (hv1 : IsReal v1) (hW2 : IsReal W2) (hb2 : IsReal b2) (hg2 : IsReal g2) (hβ2 : IsReal β2)
    (hμ2 : IsReal μ2) (hv2 : IsReal v2) (p1 : ∀ i, (0 : EReal) ≤ v1 i) (p2 : ∀ i, (0 : EReal) ≤ v2 i)
    (ee : e (ix2 (0 : Fin 1) (0 : Fin 1)) = e0 ix0)
    (ew1 : ∀ (k : Fin 128) (j : Fin 256), w1 (ix2 k j) = W1 (ix2 k j) * (g1 (ix1 j) * Ideal.rsqrt (v1 (ix1 j) + Ideal.ofBits .f32 0x3727C5AC#32)))
    (ec1 : ∀ j : Fin 256, c1 (ix2 (0 : Fin 1) j) = (b1 (ix1 j) - μ1 (ix1 j)) * (g1 (ix1 j) * Ideal.rsqrt (v1 (ix1 j) + Ideal.ofBits .f32 0x3727C5AC#32)) + β1 (ix1 j))
    (ew2 : ∀ (k : Fin 256) (j : Fin 256), w2 (ix2 k j) = W2 (ix2 k j) * (g2 (ix1 j) * Ideal.rsqrt (v2 (ix1 j) + Ideal.ofBits .f32 0x3727C5AC#32)))
    (ec2 : ∀ j : Fin 256, c2 (ix2 (0 : Fin 1) j) = (b2 (ix1 j) - μ2 (ix1 j)) * (g2 (ix1 j) * Ideal.rsqrt (v2 (ix1 j) + Ideal.ofBits .f32 0x3727C5AC#32)) + β2 (ix1 j))
    (n : Fin N) (j : Fin 256) :
    kernelAt x a e w1 c1 w2 c2 R n j = referenceAt x a e0 W1 b1 g1 β1 μ1 v1 W2 b2 g2 β2 μ2 v2 R n j := by
  unfold kernelAt referenceAt
  obtain ⟨o, ho⟩ := one_real
  obtain ⟨z, hz⟩ := zero_real
  -- the input row of the first layer is real
  have h0real : IsReal (fun k' : Fin 128 => (Ideal.ofBits .f32 0x3F800000#32 + e0 ix0) * x (ix2 n k') + a (ix2 n k')) := fun k' => by
    obtain ⟨er, her⟩ := he0 ix0
    obtain ⟨xr, hxr⟩ := hx (ix2 n k')
    obtain ⟨ar, har⟩ := ha (ix2 n k')
    exact ⟨(o + er) * xr + ar, by show (_ + _) * _ + _ = _; rw [ho, her, hxr, har, ← EReal.coe_add, ← EReal.coe_mul, ← EReal.coe_add]⟩
  -- first layer, column k
  have L1 : ∀ k : Fin 256, ∃ r : ℝ,
      (∑ k' : Fin 128, ((Ideal.ofBits .f32 0x3F800000#32 + e (ix2 (0 : Fin 1) (0 : Fin 1))) * x (ix2 n k') + a (ix2 n k')) * w1 (ix2 k' k))
          + c1 (ix2 (0 : Fin 1) k) = (r : EReal)
      ∧ ((∑ k' : Fin 128, ((Ideal.ofBits .f32 0x3F800000#32 + e0 ix0) * x (ix2 n k') + a (ix2 n k')) * W1 (ix2 k' k))
          + b1 (ix1 k) - μ1 (ix1 k)) * Ideal.rsqrt (v1 (ix1 k) + Ideal.ofBits .f32 0x3727C5AC#32) * g1 (ix1 k) + β1 (ix1 k) = (r : EReal) := fun k => by
    have := layer (fun k' : Fin 128 => (Ideal.ofBits .f32 0x3F800000#32 + e0 ix0) * x (ix2 n k') + a (ix2 n k'))
      (fun k' => W1 (ix2 k' k)) (b1 (ix1 k)) (μ1 (ix1 k)) (v1 (ix1 k)) (g1 (ix1 k)) (β1 (ix1 k)) h0real (fun k' => hW1 _)
      (hb1 _) (hμ1 _) (hv1 _) (hg1 _) (hβ1 _) (p1 _)
    obtain ⟨r, hk, hr⟩ := this
    refine ⟨r, ?_, hr⟩
    rw [ee, ec1, ← hk]
    congr 1
    exact Finset.sum_congr rfl fun k' _ => by rw [ew1]
  choose r1 hK1 hR1 using L1
  -- the input row of the second layer is real, and the same on both sides
  have h1real : IsReal (fun k : Fin 256 => max (r1 k : EReal) (Ideal.ofBits .f32 0x00000000#32)) := fun k =>
    max_real _ _ ⟨_, rfl⟩ ⟨z, hz⟩
  have L2 := layer (fun k : Fin 256 => max (r1 k : EReal) (Ideal.ofBits .f32 0x00000000#32))
      (fun k => W2 (ix2 k j)) (b2 (ix1 j)) (μ2 (ix1 j)) (v2 (ix1 j)) (g2 (ix1 j)) (β2 (ix1 j)) h1real (fun k => hW2 _)
      (hb2 _) (hμ2 _) (hv2 _) (hg2 _) (hβ2 _) (p2 _)
  obtain ⟨r2, hK2, hR2⟩ := L2
  have eK : (∑ k : Fin 256, max (∑ k' : Fin 128,
        ((Ideal.ofBits .f32 0x3F800000#32 + e (ix2 (0 : Fin 1) (0 : Fin 1))) * x (ix2 n k') + a (ix2 n k')) * w1 (ix2 k' k)
          + c1 (ix2 (0 : Fin 1) k)) (Ideal.ofBits .f32 0x00000000#32) * w2 (ix2 k j))
        + c2 (ix2 (0 : Fin 1) j) = (r2 : EReal) := by
    rw [ec2, ← hK2]
    congr 1
    exact Finset.sum_congr rfl fun k _ => by rw [hK1 k, ew2]
  have eR : ((∑ k : Fin 256, max (((∑ k' : Fin 128,
        ((Ideal.ofBits .f32 0x3F800000#32 + e0 ix0) * x (ix2 n k') + a (ix2 n k')) * W1 (ix2 k' k))
          + b1 (ix1 k) - μ1 (ix1 k)) * Ideal.rsqrt (v1 (ix1 k) + Ideal.ofBits .f32 0x3727C5AC#32) * g1 (ix1 k) + β1 (ix1 k))
        (Ideal.ofBits .f32 0x00000000#32) * W2 (ix2 k j))
      + b2 (ix1 j) - μ2 (ix1 j)) * Ideal.rsqrt (v2 (ix1 j) + Ideal.ofBits .f32 0x3727C5AC#32) * g2 (ix1 j) + β2 (ix1 j) = (r2 : EReal) := by
    rw [← hR2]
    congr 5
    exact Finset.sum_congr rfl fun k _ => by rw [hR1 k]
  rw [eK, eR]

end Cert.Spec

end
-- ==== Proof.KerBlocks.lean ====
/-
  From blocks to the whole array.

  The grid has ten points; point `t` reads rows `4000·t … 4000·t + 3999` of the features and of the aggregated
  messages, reads the scalar, the two scaled weight matrices, the two bias rows and the residual weights whole, and
  writes rows `4000·t … 4000·t + 3999` of the result.  A row of the result depends only on the same row of the two
  row-blocked inputs, so what point `t` writes is block `t` of ONE function of the whole arrays
  (`Cert.Spec.kernelOut`), and the ten blocks tile the 40000 rows: the result array is that function.
-/
import proofs.«126358_j90580860273090_2_alg».proof.Proof.Gen.KernelIdeal.Value
import proofs.«126358_j90580860273090_2_alg».proof.Proof.KerPay
import proofs.«126358_j90580860273090_2_alg».proof.Proof.Spec

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as one function of the arrays the region finds in its eight input windows. -/
abbrev G (c : Dev nD) : S40000x256.Idx → EReal :=
  Cert.Spec.kernelOut (N := 40000) (V m c main_v40) (V m c main_v41) (V m c main_v14) (V m c main_v26) (V m c main_v30)
    (V m c main_v34) (V m c main_v38) (V m c main_v39)

/-- The row-blocked windows move with the output's block on the row axis and stay at column block 0; the output's
    block index is the point's number (decided over the ten points). -/
theorem idx_rows : ∀ t : Fin cfg0.N, win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_8.index t (1 : Fin 2) = 0 ∧ win0_8.index t (0 : Fin 2) < 10 :=
  (by decide +kernel : ∀ t : Fin grid0.N, _)

/-- The other six windows stay at block (0, 0). -/
theorem idx_const : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Every block row of the output is some point's. -/
theorem idx_onto : ∀ q : Fin 10, ∃ t : Fin cfg0.N, win0_8.index t = ![q.val, 0] :=
  (by decide +kernel : ∀ q : Fin 10, ∃ t : Fin grid0.N, win0_8.index t = ![q.val, 0])

/-- Window 2's block is its whole array at every point. -/
theorem iblk2_eq (c : Dev nD) (t : Fin cfg0.N) : (iblk m c 2 t : S1x1.Idx → EReal) = V m c main_v14 := by
  have h0 : win0_2.index t (0 : Fin 2) = 0 := (idx_const t).1
  have h1 : win0_2.index t (1 : Fin 2) = 0 := (idx_const t).2.1
  funext y
  show V m c main_v14 (((cfg0.win 2).blk t).view.emb y) = V m c main_v14 y
  refine congrArg (V m c main_v14) (funext fun a => Fin.ext ?_)
  match a with
  | ⟨0, _⟩ => show win0_2.index t (0 : Fin 2) * 1 + 1 * (y 0).val = (y 0).val; omega
  | ⟨1, _⟩ => show win0_2.index t (1 : Fin 2) * 1 + 1 * (y 1).val = (y 1).val; omega

/-- Window 3's block is its whole array at every point. -/
theorem iblk3_eq (c : Dev nD) (t : Fin cfg0.N) : (iblk m c 3 t : S128x256.Idx → EReal) = V m c main_v26 := by
  have h0 : win0_3.index t (0 : Fin 2) = 0 := (idx_const t).2.2.1
  have h1 : win0_3.index t (1 : Fin 2) = 0 := (idx_const t).2.2.2.1
  funext y
  show V m c main_v26 (((cfg0.win 3).blk t).view.emb y) = V m c main_v26 y
  refine congrArg (V m c main_v26) (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega

/-- Window 4's block is its whole array at every point. -/
theorem iblk4_eq (c : Dev nD) (t : Fin cfg0.N) : (iblk m c 4 t : S1x256.Idx → EReal) = V m c main_v30 := by
  have h0 : win0_4.index t (0 : Fin 2) = 0 := (idx_const t).2.2.2.2.1
  have h1 : win0_4.index t (1 : Fin 2) = 0 := (idx_const t).2.2.2.2.2.1
  funext y
  show V m c main_v30 (((cfg0.win 4).blk t).view.emb y) = V m c main_v30 y
  refine congrArg (V m c main_v30) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Window 5's block is its whole array at every point. -/
theorem iblk5_eq (c : Dev nD) (t : Fin cfg0.N) : (iblk m c 5 t : S256x256.Idx → EReal) = V m c main_v34 := by
  have h0 : win0_5.index t (0 : Fin 2) = 0 := (idx_const t).2.2.2.2.2.2.1
  have h1 : win0_5.index t (1 : Fin 2) = 0 := (idx_const t).2.2.2.2.2.2.2.1
  funext y
  show V m c main_v34 (((cfg0.win 5).blk t).view.emb y) = V m c main_v34 y
  refine congrArg (V m c main_v34) (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

/-- Window 6's block is its whole array at every point. -/
theorem iblk6_eq (c : Dev nD) (t : Fin cfg0.N) : (iblk m c 6 t : S1x256.Idx → EReal) = V m c main_v38 := by
  have h0 : win0_6.index t (0 : Fin 2) = 0 := (idx_const t).2.2.2.2.2.2.2.2.1
  have h1 : win0_6.index t (1 : Fin 2) = 0 := (idx_const t).2.2.2.2.2.2.2.2.2.1
  funext y
  show V m c main_v38 (((cfg0.win 6).blk t).view.emb y) = V m c main_v38 y
  refine congrArg (V m c main_v38) (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega

/-- Window 7's block is its whole array at every point. -/
theorem iblk7_eq (c : Dev nD) (t : Fin cfg0.N) : (iblk m c 7 t : S128x256.Idx → EReal) = V m c main_v39 := by
  have h0 : win0_7.index t (0 : Fin 2) = 0 := (idx_const t).2.2.2.2.2.2.2.2.2.2.1
  have h1 : win0_7.index t (1 : Fin 2) = 0 := (idx_const t).2.2.2.2.2.2.2.2.2.2.2
  funext y
  show V m c main_v39 (((cfg0.win 7).blk t).view.emb y) = V m c main_v39 y
  refine congrArg (V m c main_v39) (funext fun a => Fin.ext ?_)
  match a with
  | ⟨0, _⟩ => show win0_7.index t (0 : Fin 2) * 128 + 1 * (y 0).val = (y 0).val; omega
  | ⟨1, _⟩ => show win0_7.index t (1 : Fin 2) * 256 + 1 * (y 1).val = (y 1).val; omega

/-- Window 0's block at point `t`, read at `(p, k)`, is the array at row `4000·(block row) + p`, column `k` — for ANY
    array `Y` (stated over a variable so that nothing about the array's contents is ever unfolded). -/
theorem read_rows0 (Y : S40000x128.Idx → EReal) (t : Fin cfg0.N) (p : Fin 4000) (k : Fin 128) :
    ((cfg0.win 0).blk t).view.read (Elt Ideal) Y (ix2 p k)
      = Y (ix2 ⟨win0_8.index t (0 : Fin 2) * 4000 + p.val, by have := (idx_rows t).2.2.2.2.2; have := p.isLt; omega⟩ k) := by
  obtain ⟨e00, e01, e10, e11, -, -⟩ := idx_rows t
  show Y (((cfg0.win 0).blk t).view.emb (ix2 p k)) = _
  refine congrArg Y (funext fun a => Fin.ext ?_)
  match a with
  | ⟨0, _⟩ => show win0_0.index t (0 : Fin 2) * 4000 + 1 * p.val = win0_8.index t (0 : Fin 2) * 4000 + p.val; omega
  | ⟨1, _⟩ => show win0_0.index t (1 : Fin 2) * 128 + 1 * k.val = k.val; omega

/-- Window 1's block at point `t`, read at `(p, k)`, is the array at row `4000·(block row) + p`, column `k` — for ANY
    array `Y` (stated over a variable so that nothing about the array's contents is ever unfolded). -/
theorem read_rows1 (Y : S40000x128.Idx → EReal) (t : Fin cfg0.N) (p : Fin 4000) (k : Fin 128) :
    ((cfg0.win 1).blk t).view.read (Elt Ideal) Y (ix2 p k)
      = Y (ix2 ⟨win0_8.index t (0 : Fin 2) * 4000 + p.val, by have := (idx_rows t).2.2.2.2.2; have := p.isLt; omega⟩ k) := by
  obtain ⟨e00, e01, e10, e11, -, -⟩ := idx_rows t
  show Y (((cfg0.win 1).blk t).view.emb (ix2 p k)) = _
  refine congrArg Y (funext fun a => Fin.ext ?_)
  match a with
  | ⟨0, _⟩ => show win0_1.index t (0 : Fin 2) * 4000 + 1 * p.val = win0_8.index t (0 : Fin 2) * 4000 + p.val; omega
  | ⟨1, _⟩ => show win0_1.index t (1 : Fin 2) * 128 + 1 * k.val = k.val; omega

/-- ONE POINT, over variables: if the two row-blocked inputs are rows `4000·q + p` of `X` and `A`, the body's result
    at `(p, j)` is the whole-array function at row `4000·q + p`. -/
theorem point_eq (X A : S40000x128.Idx → EReal) (E : S1x1.Idx → EReal) (W1 : S128x256.Idx → EReal) (B1 : S1x256.Idx → EReal)
    (W2 : S256x256.Idx → EReal) (B2 : S1x256.Idx → EReal) (WR : S128x256.Idx → EReal)
    (x0 x1 : Vec Ideal S4000x128 .bf16) (q : ℕ) (hq : q < 10)
    (hx : ∀ (p : Fin 4000) (k : Fin 128), x0 (ix2 p k) = X (ix2 ⟨q * 4000 + p.val, by have := p.isLt; omega⟩ k))
    (ha : ∀ (p : Fin 4000) (k : Fin 128), x1 (ix2 p k) = A (ix2 ⟨q * 4000 + p.val, by have := p.isLt; omega⟩ k))
    (p : Fin 4000) (j : Fin 256) :
    k0_pay1 (k0_pay2 x0 x1 E W1 B1 W2 B2 WR) (ix2 p j)
      = Cert.Spec.kernelOut (N := 40000) X A E W1 B1 W2 B2 WR (ix2 ⟨q * 4000 + p.val, by have := p.isLt; omega⟩ j) := by
  rw [Cert.KernelIdeal.Payload.pay_apply]
  unfold Cert.Spec.kernelOut Cert.Spec.kernelAt
  simp only [hx, ha]

/-- WHAT POINT `t` WRITES BACK is block `t` of the whole-array function. -/
theorem flushed_eq (c : Dev nD) (t : Fin cfg0.N) :
    (dats m 0 c).flushed 8 t = ((cfg0.win 8).blk t).view.read (Elt Ideal) (G m c) := by
  rw [Cert.KernelIdeal.Value.flushed8]
  unfold out0_8
  rw [View.canon_unit_zero hz]
  simp only [View.ld_unit_zero (S := S4000x128) hz, View.ld_unit_zero (S := S1x1) hz, View.ld_unit_zero (S := S128x256) hz,
    View.ld_unit_zero (S := S1x256) hz, View.ld_unit_zero (S := S256x256) hz]
  obtain ⟨e00, e01, e10, e11, e81, e8lt⟩ := idx_rows t
  rw [iblk2_eq, iblk3_eq, iblk4_eq, iblk5_eq, iblk6_eq, iblk7_eq]
  funext y
  obtain ⟨p, j, rfl⟩ : ∃ (p : Fin 4000) (j : Fin 256), y = ix2 p j := ⟨y 0, y 1, eq_ix2 y⟩
  show k0_pay1 (k0_pay2 (iblk m c 0 t) (iblk m c 1 t) (V m c main_v14) (V m c main_v26) (V m c main_v30) (V m c main_v34)
      (V m c main_v38) (V m c main_v39)) (ix2 p j) = G m c (((cfg0.win 8).blk t).view.emb (ix2 p j))
  refine (point_eq (V m c main_v40) (V m c main_v41) (V m c main_v14) (V m c main_v26) (V m c main_v30) (V m c main_v34)
    (V m c main_v38) (V m c main_v39) (iblk m c 0 t) (iblk m c 1 t) (win0_8.index t (0 : Fin 2)) e8lt ?_ ?_ p j).trans ?_
  · intro p k
    exact read_rows0 (V m c (Pipeline.arrRef spec0 0)) t p k
  · intro p k
    exact read_rows1 (V m c (Pipeline.arrRef spec0 1)) t p k
  · refine congrArg (G m c) (funext fun a => Fin.ext ?_)
    match a with
    | ⟨0, _⟩ => show win0_8.index t (0 : Fin 2) * 4000 + p.val = win0_8.index t (0 : Fin 2) * 4000 + 1 * p.val; omega
    | ⟨1, _⟩ => show j.val = win0_8.index t (1 : Fin 2) * 256 + 1 * j.val; omega

/-- An index of the result array is in point `t`'s block iff each coordinate is in the block's range on its axis. -/
theorem mem_blk (t : Fin cfg0.N) (i : S40000x256.Idx) :
    i ∈ ((cfg0.win 8).blk t).view.set ↔ ∀ a : Fin 2, win0_8.index t a * S4000x256.size a ≤ (i a).val ∧ (i a).val < win0_8.index t a * S4000x256.size a + S4000x256.size a := by
  show i ∈ ((View.whole main_v42).slice (win0_8.rect t)).set ↔ _
  rw [View.set_slice_whole, Rect.mem_set_unit]
  exact Iff.rfl

/-- THE COVER: row `r` of the result lies in the block of the point whose block row is `r / 4000`. -/
theorem cover (i : S40000x256.Idx) : ∃ t : Fin cfg0.N, (cfg0.win 8).flush t = true ∧ i ∈ ((cfg0.win 8).blk t).view.set := by
  have hi0 : (i 0).val < 40000 := (i 0).isLt
  have hi1 : (i 1).val < 256 := (i 1).isLt
  obtain ⟨t, ht⟩ := idx_onto ⟨(i 0).val / 4000, by omega⟩
  have q0 : win0_8.index t (0 : Fin 2) = (i 0).val / 4000 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 4000 ≤ (i 0).val ∧ (i 0).val < win0_8.index t (0 : Fin 2) * 4000 + 4000; omega
  | ⟨1, _⟩ => show win0_8.index t (1 : Fin 2) * 256 ≤ (i 1).val ∧ (i 1).val < win0_8.index t (1 : Fin 2) * 256 + 256; omega

/-- THE ARRAY after the run is the whole-array function of the window arrays. -/
theorem final (c : Dev nD) : (dats m 0 c).arrAt 8 cfg0.N = G m c :=
  (dats m 0 c).arrAt_eq_of_cover 8 (G m c) (fun t _ => flushed_eq m c t) cover

end Cert.KernelIdeal.Blocks

end
-- ==== Proof.Agg.lean ====
/-
  The aggregated messages.

  Edge `q` carries the features of its source node to its target node.  `aggOf x e` is the array whose row `n` is the
  sum, over the edges whose target is `n`, of the source rows: a gather of the rows of `x` named by the first row of
  `e` (a negative index wrapped once by the number of nodes, then clamped into range by the gather), accumulated
  into zeros at the rows named by the second row of `e` (an index outside the array lands nowhere).

  Both programs compute it by the same operations, so the proof never needs its value: only that it is an array of
  reals when `x` is — every gathered entry is an entry of `x`, and a finite sum of reals is a real.
-/
import proofs.«126358_j90580860273090_2_alg».proof.Proof.Gen.KernelIdeal
import proofs.«126358_j90580860273090_2_alg».proof.Proof.LibReals
import Idealize.ShloMosaic.PureOps.Ideal.Laws

noncomputable section

namespace Cert.Agg

open Cert.KernelIdeal Cert.KernelIdeal.Facts₀ Idealize.ShloMosaic Cert.Reals

/-- The aggregated messages of features `x` along edges `e`. -/
def aggOf (x : FVec Ideal S40000x128 .f32) (e : IVec S2x640000 32) : FVec Ideal S40000x128 .f32 :=
  Host.scatterAdd scatter_S40000x128_S640000x1_S640000x128_1_0_0_1 (broadcastInDim S40000x128 ![] bcast_S_S40000x128 (constant S_ .f32 0x00000000#32)) (broadcastInDim S640000x1 ![0] bcast_S640000_S640000x1_0 (shapeCast _ (extractStridedSlice S1x640000 ![1, 0] e slices_S2x640000_S1x640000_1_0) shapeCasts_S1x640000_S640000)) (Host.gather gather_S40000x128_S640000x1_S640000x128_1_0_n_n_0_1_1128 x (broadcastInDim S640000x1 ![0] bcast_S640000_S640000x1_0 (select (cmpi .slt (shapeCast _ (extractStridedSlice S1x640000 ![0, 0] e slices_S2x640000_S1x640000_0_0) shapeCasts_S1x640000_S640000) (broadcastInDim S640000 ![] bcast_S_S640000 (constantI S_ 32 0#32))) (addi (shapeCast _ (extractStridedSlice S1x640000 ![0, 0] e slices_S2x640000_S1x640000_0_0) shapeCasts_S1x640000_S640000) (broadcastInDim S640000 ![] bcast_S_S640000 (constantI S_ 32 40000#32))) (shapeCast _ (extractStridedSlice S1x640000 ![0, 0] e slices_S2x640000_S1x640000_0_0) shapeCasts_S1x640000_S640000))))

/-- The aggregated messages of real features are real. -/
theorem aggOf_isReal (x : FVec Ideal S40000x128 .f32) (e : IVec S2x640000 32) (hx : IsReal x) : IsReal (aggOf x e) := by
  unfold aggOf
  refine scatterAdd_isReal _ _ _ _ (fun i => ⟨0, ?_⟩) (gather_isReal _ _ _ hx)
  show Ideal.ofBits .f32 0x00000000#32 = ((0 : ℝ) : EReal)
  rw [Ideal.ofBits_zero_f32, EReal.coe_zero]

end Cert.Agg

end
-- ==== Proof.KerHost.lean ====
/-
  The arrays the kernel's region reads, as functions of the program's arguments.

  Before its one region the program runs 47 host operations.  Eight of the arrays they write are staged by the
  region's input windows.  Over the extended reals a change of float format is the identity, so:
    * the node features are the argument itself, and the aggregated messages are the gather/scatter term of the
      features and the edge list (the same term the reference computes);
    * the scalar argument is reshaped to a 1×1 array;
    * each of the two normalisations is folded into its linear layer: with the per-column scale
      s j = g j · rsqrt (v j + ε), the weight matrix has its column j multiplied by s j, and the bias row is
      (b j - mean j) · s j + β j;
    * the residual weight matrix is the argument itself.
  Each statement reads the composed term of the host operations at an index: an elementwise operation reads its
  operands at the same index, a broadcast of a vector over rows reads the vector at the column, a reshape that adds a
  leading unit axis reads the vector at the column, and a broadcast scalar constant reads the constant.
-/
import proofs.«126358_j90580860273090_2_alg».proof.Proof.Gen.KernelIdeal.Frame
import proofs.«126358_j90580860273090_2_alg».proof.Proof.Agg
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostSide

open Cert.KernelIdeal Cert.KernelIdeal.Facts₀ Idealize.ShloMosaic Idealize.ShloMosaic.TcCoe Idealize.SL.Sem
open Idealize.ShloMosaic.StableHlo Idealize.ShloMosaic.ValueIdx

/-- The small constant added under the reciprocal square root. -/
abbrev ε : EReal := Ideal.ofBits .f32 0x3727C5AC#32

/-! ## The pieces, for any operands -/

/-- The per-column scale of a normalisation: g · rsqrt (v + ε), elementwise. -/
def scaleOf (g v : FVec Ideal S256 .f32) : FVec Ideal S256 .f32 :=
  mulf g (Host.rsqrt (addf v (broadcastInDim S256 ![] bcast_S_S256 (constant S_ .f32 0x3727C5AC#32))))

/-- The scale at a column: each operation reads its operands at that column, the broadcast constant reads ε. -/
theorem scaleOf_apply (g v : FVec Ideal S256 .f32) (i : S256.Idx) :
    scaleOf g v i = g i * Ideal.rsqrt (v i + ε) := rfl

/-- A vector over the columns, broadcast to one row and then over N rows, reads at (k, j) the vector at j. -/
theorem rows_apply {N : Nat} (hb1 : S256.BroadcastsInDim S1x256 ![1])
    (hb2 : S1x256.BroadcastsInDim ⟨2, ![N, 256]⟩ ![0, 1]) (y : S256.Idx → EReal) (k : Fin N) (j : Fin 256) :
    broadcastInDim ⟨2, ![N, 256]⟩ ![0, 1] hb2 (broadcastInDim S1x256 ![1] hb1 y) (ix2 k j) = y (ix1 j) := by
  rw [broadcastInDim_apply _ hb2 _ (ix2 k j) (ix2 (0 : Fin 1) j) (fun a => match a with
        | ⟨0, _⟩ => by show 0 = if (1 : Nat) = 1 then 0 else k.val; rw [if_pos rfl]
        | ⟨1, _⟩ => by show j.val = if (256 : Nat) = 1 then 0 else j.val; rw [if_neg (by decide)]),
      broadcastInDim_apply _ hb1 y (ix2 (0 : Fin 1) j) (ix1 j) (fun a => match a with
        | ⟨0, _⟩ => by show j.val = if (256 : Nat) = 1 then 0 else j.val; rw [if_neg (by decide)])]

variable (m : (ℓ : Loc nD τ sig) → Buf (Elt Ideal) ℓ) (c : Dev nD)

/-! ## The program's arguments -/
abbrev A0 : FVec Ideal S40000x128 .f32 := m ((c : Thread nD τ).loc main_arg0)
abbrev A1 : IVec S2x640000 32 := m ((c : Thread nD τ).loc main_arg1)
abbrev A2 : FVec Ideal S_ .f32 := m ((c : Thread nD τ).loc main_arg2)
abbrev A3 : FVec Ideal S128x256 .f32 := m ((c : Thread nD τ).loc main_arg3)
abbrev A4 : FVec Ideal S256 .f32 := m ((c : Thread nD τ).loc main_arg4)
abbrev A5 : FVec Ideal S256 .f32 := m ((c : Thread nD τ).loc main_arg5)
abbrev A6 : FVec Ideal S256 .f32 := m ((c : Thread nD τ).loc main_arg6)
abbrev A7 : FVec Ideal S256 .f32 := m ((c : Thread nD τ).loc main_arg7)
abbrev A8 : FVec Ideal S256 .f32 := m ((c : Thread nD τ).loc main_arg8)
abbrev A9 : FVec Ideal S256x256 .f32 := m ((c : Thread nD τ).loc main_arg9)
abbrev A10 : FVec Ideal S256 .f32 := m ((c : Thread nD τ).loc main_arg10)
abbrev A11 : FVec Ideal S256 .f32 := m ((c : Thread nD τ).loc main_arg11)
abbrev A12 : FVec Ideal S256 .f32 := m ((c : Thread nD τ).loc main_arg12)
abbrev A13 : FVec Ideal S256 .f32 := m ((c : Thread nD τ).loc main_arg13)
abbrev A14 : FVec Ideal S256 .f32 := m ((c : Thread nD τ).loc main_arg14)
abbrev A15 : FVec Ideal S128x256 .f32 := m ((c : Thread nD τ).loc main_arg15)

/-! ## The eight staged arrays -/

/-- The node features, narrowed: the argument itself. -/
theorem v40 : (Gen.V m c main_v40 : S40000x128.Idx → EReal) = A0 m c := by
  have e : (Gen.V m c main_v40 : S40000x128.Idx → EReal)
      = (truncf (F := Ideal) (s := S40000x128) (φ := .f32) .bf16 (A0 m c) bitsLt_bf16_f32 : S40000x128.Idx → EReal) := by
    dsimp only [Gen.V, Gen.hostOps0]; after_results_simp <;> rfl
  rw [e]; exact funext fun i => truncf_apply (A0 m c) bitsLt_bf16_f32 i

/-- The residual weights, narrowed: the argument itself. -/
theorem v39 : (Gen.V m c main_v39 : S128x256.Idx → EReal) = A15 m c := by
  have e : (Gen.V m c main_v39 : S128x256.Idx → EReal)
      = (truncf (F := Ideal) (s := S128x256) (φ := .f32) .bf16 (A15 m c) bitsLt_bf16_f32 : S128x256.Idx → EReal) := by
    dsimp only [Gen.V, Gen.hostOps0]; after_results_simp <;> rfl
  rw [e]; exact funext fun i => truncf_apply (A15 m c) bitsLt_bf16_f32 i

/-- The scalar argument reshaped to 1×1: both shapes have one element. -/
theorem v14 (i : S1x1.Idx) : (Gen.V m c main_v14 : S1x1.Idx → EReal) i = A2 m c ix0 := by
  have e : (Gen.V m c main_v14 : S1x1.Idx → EReal)
      = (shapeCast (α := EReal) S1x1 (A2 m c) shapeCasts_S_S1x1 : S1x1.Idx → EReal) := by
    dsimp only [Gen.V, Gen.hostOps0]; after_results_simp <;> rfl
  rw [e]
  refine shapeCast_apply (A2 m c) shapeCasts_S_S1x1 i ix0 ?_
  have h1 : (S_.rowMajor ix0).val < 1 := (S_.rowMajor ix0).isLt
  have h2 : (S1x1.rowMajor i).val < 1 := (S1x1.rowMajor i).isLt
  omega

/-- The aggregated messages, narrowed: the gather/scatter term of the features and the edge list. -/
theorem v41 : (Gen.V m c main_v41 : S40000x128.Idx → EReal) = Cert.Agg.aggOf (A0 m c) (A1 m c) := by
  have e : (Gen.V m c main_v41 : S40000x128.Idx → EReal)
      = (truncf (F := Ideal) (s := S40000x128) (φ := .f32) .bf16 (Cert.Agg.aggOf (A0 m c) (A1 m c)) bitsLt_bf16_f32
          : S40000x128.Idx → EReal) := by
    dsimp only [Gen.V, Gen.hostOps0]; after_results_simp <;> rfl
  rw [e]; exact funext fun i => truncf_apply (Cert.Agg.aggOf (A0 m c) (A1 m c)) bitsLt_bf16_f32 i

/-- The first layer's weights with the first normalisation's scale folded in: column j multiplied by the scale at j. -/
theorem v26 (k : Fin 128) (j : Fin 256) :
    (Gen.V m c main_v26 : S128x256.Idx → EReal) (ix2 k j)
      = A3 m c (ix2 k j) * (A5 m c (ix1 j) * Ideal.rsqrt (A8 m c (ix1 j) + ε)) := by
  have e : (Gen.V m c main_v26 : S128x256.Idx → EReal)
      = (truncf (F := Ideal) (s := S128x256) (φ := .f32) .bf16
          (mulf (A3 m c) (broadcastInDim S128x256 ![0, 1] bcast_S1x256_S128x256_0_1
            (broadcastInDim S1x256 ![1] bcast_S256_S1x256_1 (scaleOf (A5 m c) (A8 m c))))) bitsLt_bf16_f32
          : S128x256.Idx → EReal) := by
    dsimp only [Gen.V, Gen.hostOps0]; after_results_simp <;> rfl
  rw [e, truncf_apply, mulf_apply, rows_apply, scaleOf_apply]

/-- The first layer's bias row with the first normalisation folded in: (b - mean) · scale + β at each column. -/
theorem v30 (u : Fin 1) (j : Fin 256) :
    (Gen.V m c main_v30 : S1x256.Idx → EReal) (ix2 u j)
      = (A4 m c (ix1 j) - A7 m c (ix1 j)) * (A5 m c (ix1 j) * Ideal.rsqrt (A8 m c (ix1 j) + ε)) + A6 m c (ix1 j) := by
  have e : (Gen.V m c main_v30 : S1x256.Idx → EReal)
      = (shapeCast (α := EReal) S1x256
          (addf (mulf (subf (A4 m c) (A7 m c)) (scaleOf (A5 m c) (A8 m c))) (A6 m c)) shapeCasts_S256_S1x256
          : S1x256.Idx → EReal) := by
    dsimp only [Gen.V, Gen.hostOps0]; after_results_simp <;> rfl
  rw [e, shapeCast_a_1a_apply, addf_apply, mulf_apply, subf_apply, scaleOf_apply]

/-- The second layer's weights with the second normalisation's scale folded in. -/
theorem v34 (k j : Fin 256) :
    (Gen.V m c main_v34 : S256x256.Idx → EReal) (ix2 k j)
      = A9 m c (ix2 k j) * (A11 m c (ix1 j) * Ideal.rsqrt (A14 m c (ix1 j) + ε)) := by
  have e : (Gen.V m c main_v34 : S256x256.Idx → EReal)
      = (truncf (F := Ideal) (s := S256x256) (φ := .f32) .bf16
          (mulf (A9 m c) (broadcastInDim S256x256 ![0, 1] bcast_S1x256_S256x256_0_1
            (broadcastInDim S1x256 ![1] bcast_S256_S1x256_1 (scaleOf (A11 m c) (A14 m c))))) bitsLt_bf16_f32
          : S256x256.Idx → EReal) := by
    dsimp only [Gen.V, Gen.hostOps0]; after_results_simp <;> rfl
  rw [e, truncf_apply, mulf_apply, rows_apply, scaleOf_apply]

/-- The second layer's bias row with the second normalisation folded in. -/
theorem v38 (u : Fin 1) (j : Fin 256) :
    (Gen.V m c main_v38 : S1x256.Idx → EReal) (ix2 u j)
      = (A10 m c (ix1 j) - A13 m c (ix1 j)) * (A11 m c (ix1 j) * Ideal.rsqrt (A14 m c (ix1 j) + ε)) + A12 m c (ix1 j) := by
  have e : (Gen.V m c main_v38 : S1x256.Idx → EReal)
      = (shapeCast (α := EReal) S1x256
          (addf (mulf (subf (A10 m c) (A13 m c)) (scaleOf (A11 m c) (A14 m c))) (A12 m c)) shapeCasts_S256_S1x256
          : S1x256.Idx → EReal) := by
    dsimp only [Gen.V, Gen.hostOps0]; after_results_simp <;> rfl
  rw [e, shapeCast_a_1a_apply, addf_apply, mulf_apply, subf_apply, scaleOf_apply]

end Cert.KernelIdeal.HostSide

end
-- ==== Proof.PreFacts.lean ====
/-
  The precondition, read back.

  The precondition is the conjunction of seventeen tests, each an "all elements" reduction of an elementwise
  comparison.  Fifteen of them say, one for each float argument, that every element x has |x| < +∞; the last two say
  that every element of arguments 8 and 14 (v1 and v2) is ≥ 0.  Over the extended reals |x| = max x (-x), the pattern
  0x7F800000 denotes ⊤ and the pattern 0x00000000 denotes 0.  An extended real with max x (-x) < ⊤ is neither ⊤ (then
  max x (-x) = ⊤) nor ⊥ (then -x = ⊤), so it is a real number: the first fifteen tests say every float argument is an
  array of reals, and the last two say that arguments 8 and 14 are nonnegative.
-/
import proofs.«126358_j90580860273090_2_alg».proof.Pre_finite_inputs
import proofs.«126358_j90580860273090_2_alg».proof.Proof.LibReals
import Idealize.ShloMosaic.Lib.ReduceAll
import Idealize.ShloMosaic.Lib.ValueIdx
import Idealize.ShloMosaic.PureOps.Ideal.Laws

noncomputable section

namespace Cert.PreFacts

open Idealize.ShloMosaic Cert.Reals

/-- The scalar shape has one index. -/
instance : Subsingleton Cert.Pre_finite_inputs.S_.Idx := ⟨fun a b => funext fun d => d.elim0⟩

/-- A one-bit word made from a Boolean is 1 exactly when the Boolean is true. -/
theorem ofBool_eq_one (b : Bool) : BitVec.ofBool b = 1#1 ↔ b = true := by cases b <;> decide

/-- The pattern 0x7F800000 denotes +∞. -/
theorem inf_eq : Ideal.ofBits .f32 0x7F800000#32 = (⊤ : EReal) := by simp [Ideal.ofBits, Ideal.ieee]

/-- An extended real whose absolute value max x (-x) is below +∞ is a real number: at ⊤ the maximum is ⊤, at ⊥ the
    negation is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One element's finiteness test: the comparison |x| < 0x7F800000 answering 1 makes x a real number. -/
theorem real_of_test (x : EReal) (h : Ideal.cmp .olt (max x (-x)) (Ideal.ofBits .f32 0x7F800000#32) = 1#1) :
    ∃ r : ℝ, x = (r : EReal) := by
  rw [inf_eq] at h
  unfold Ideal.cmp at h
  rw [ofBool_eq_one] at h
  exact real_of_abs_lt_top x (of_decide_eq_true h)

/-- One element's sign test: the comparison x ≥ 0x00000000 answering 1 makes x nonnegative. -/
theorem nonneg_of_test (x : EReal) (h : Ideal.cmp .oge x (Ideal.ofBits .f32 0x00000000#32) = 1#1) : (0 : EReal) ≤ x := by
  rw [Ideal.ofBits_zero_f32] at h
  unfold Ideal.cmp at h
  rw [ofBool_eq_one] at h
  exact of_decide_eq_true h

open Cert.Pre_finite_inputs in
/-- The finiteness test of an array of any shape: if "all of |x| < +∞" is 1 then every element of x is a real. -/
theorem isReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi (cmpf .olt (Host.absf x) (broadcastInDim s ![] hb (constant S_ .f32 0x7F800000#32)))
          init hr hu j = 1#1) : IsReal x :=
  fun i => real_of_test (x i) (Host.reduce_andi_all _ init hr hu j e i)

open Cert.Pre_finite_inputs in
/-- The same test of a scalar argument, which is compared with the constant itself (no broadcast). -/
theorem isReal_of_all_scalar {axes : List (Fin S_.rank)} (x : FVec Ideal S_ .f32)
    (hr : S_.ReducesTo axes S_) (hu : 0 < S_.numel) (init : IVec S_ 1) (j : S_.Idx)
    (e : Host.reduce IntOp.andi (cmpf .olt (Host.absf x) (constant S_ .f32 0x7F800000#32)) init hr hu j = 1#1) :
    IsReal x :=
  fun i => real_of_test (x i) (Host.reduce_andi_all _ init hr hu j e i)

open Cert.Pre_finite_inputs in
/-- The sign test of an array of any shape: if "all of x ≥ 0" is 1 then every element of x is nonnegative. -/
theorem nonneg_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi (cmpf .oge x (broadcastInDim s ![] hb (constant S_ .f32 0x00000000#32)))
          init hr hu j = 1#1) : ∀ i, (0 : EReal) ≤ x i :=
  fun i => nonneg_of_test (x i) (Host.reduce_andi_all _ init hr hu j e i)

open Cert.Pre_finite_inputs Idealize.ShloMosaic.ValueIdx in
/-- The precondition gives: every float argument is an array of reals, and arguments 8 and 14 are nonnegative. -/
theorem of_pre [Cert.Pre_finite_inputs.Facts] (a0 : FVec Ideal S40000x128 .f32) (a1 : IVec S2x640000 32) (a2 : FVec Ideal S_ .f32)
    (a3 : FVec Ideal S128x256 .f32) (a4 a5 a6 a7 a8 : FVec Ideal S256 .f32) (a9 : FVec Ideal S256x256 .f32)
    (a10 a11 a12 a13 a14 : FVec Ideal S256 .f32) (a15 : FVec Ideal S128x256 .f32)
    (h : Cert.Pre_finite_inputs.fn (F := Ideal) a0 a1 a2 a3 a4 a5 a6 a7 a8 a9 a10 a11 a12 a13 a14 a15 = fun _ => 1#1) :
    IsReal a0 ∧ IsReal a2 ∧ IsReal a3 ∧ IsReal a4 ∧ IsReal a5 ∧ IsReal a6 ∧ IsReal a7 ∧ IsReal a8 ∧ IsReal a9
      ∧ IsReal a10 ∧ IsReal a11 ∧ IsReal a12 ∧ IsReal a13 ∧ IsReal a14 ∧ IsReal a15
      ∧ (∀ i, (0 : EReal) ≤ a8 i) ∧ (∀ i, (0 : EReal) ≤ a14 i) := by
  have e := congrFun h ix0
  dsimp only [fn, fn_part1, fn_part2, fn_part3, fn_part4] at e
  simp only [andi, IntOp.andi_eq_one] at e
  obtain ⟨⟨⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩, p8⟩, p14⟩ := e
  exact ⟨isReal_of_all a0 _ _ _ _ _ e0, isReal_of_all_scalar a2 _ _ _ _ e2, isReal_of_all a3 _ _ _ _ _ e3,
    isReal_of_all a4 _ _ _ _ _ e4, isReal_of_all a5 _ _ _ _ _ e5, isReal_of_all a6 _ _ _ _ _ e6,
    isReal_of_all a7 _ _ _ _ _ e7, isReal_of_all a8 _ _ _ _ _ e8, isReal_of_all a9 _ _ _ _ _ e9,
    isReal_of_all a10 _ _ _ _ _ e10, isReal_of_all a11 _ _ _ _ _ e11, isReal_of_all a12 _ _ _ _ _ e12,
    isReal_of_all a13 _ _ _ _ _ e13, isReal_of_all a14 _ _ _ _ _ e14, isReal_of_all a15 _ _ _ _ _ e15,
    nonneg_of_all a8 _ _ _ _ _ p8, nonneg_of_all a14 _ _ _ _ _ p14⟩

end Cert.PreFacts

end
-- ==== Proof.KerValue.lean ====
/-
  The kernel's result is the reference's formula.

  After the run the result array is the whole-array function of the eight arrays the region found in its input
  windows.  Those arrays are the arguments themselves (features, residual weights), the aggregated messages, the
  reshaped scalar, and the two layers' weights and biases with the normalisation folded in.  With every argument
  real and both variance vectors nonnegative, folding the normalisation into the layer does not change the value, so
  the kernel's function of its window arrays is the reference's function of the arguments.
-/
import proofs.«126358_j90580860273090_2_alg».proof.Proof.KerBlocks
import proofs.«126358_j90580860273090_2_alg».proof.Proof.KerHost
import proofs.«126358_j90580860273090_2_alg».proof.Proof.PreFacts

noncomputable section

namespace Cert.KernelIdeal.KerValue

open Cert.KernelIdeal Cert.KernelIdeal.Gen Cert.KernelIdeal.HostSide Idealize.ShloMosaic Idealize.ShloMosaic.TcCoe Idealize.SL.Sem
open Idealize.ShloMosaic.ValueIdx

variable (m : (ℓ : Loc nD τ sig) → Buf (Elt Ideal) ℓ)

/-- The common result: the reference's formula of the arguments and their aggregated messages. -/
def result (c : Dev nD) : S40000x256.Idx → EReal :=
  Cert.Spec.referenceOut (N := 40000) (A0 m c) (Cert.Agg.aggOf (A0 m c) (A1 m c)) (A2 m c) (A3 m c) (A4 m c) (A5 m c) (A6 m c)
    (A7 m c) (A8 m c) (A9 m c) (A10 m c) (A11 m c) (A12 m c) (A13 m c) (A14 m c) (A15 m c)

/-- Under the precondition the kernel's whole-array function of its window arrays is the common result. -/
theorem G_eq [Cert.Pre_finite_inputs.Facts] (c : Dev nD)
    (hpre : Cert.Pre_finite_inputs.fn (F := Ideal) (A0 m c) (A1 m c) (A2 m c) (A3 m c) (A4 m c) (A5 m c) (A6 m c) (A7 m c) (A8 m c) (A9 m c) (A10 m c) (A11 m c) (A12 m c) (A13 m c) (A14 m c) (A15 m c) = fun _ => 1#1) :
    Cert.KernelIdeal.Blocks.G m c = result m c := by
  obtain ⟨r0, r2, r3, r4, r5, r6, r7, r8, r9, r10, r11, r12, r13, r14, r15, p8, p14⟩ :=
    Cert.PreFacts.of_pre (A0 m c) (A1 m c) (A2 m c) (A3 m c) (A4 m c) (A5 m c) (A6 m c) (A7 m c) (A8 m c) (A9 m c) (A10 m c) (A11 m c) (A12 m c) (A13 m c) (A14 m c) (A15 m c) hpre
  funext i
  show Cert.Spec.kernelAt (N := 40000) (V m c main_v40) (V m c main_v41) (V m c main_v14) (V m c main_v26) (V m c main_v30)
      (V m c main_v34) (V m c main_v38) (V m c main_v39) (i 0) (i 1)
    = Cert.Spec.referenceAt (N := 40000) (A0 m c) (Cert.Agg.aggOf (A0 m c) (A1 m c)) (A2 m c) (A3 m c) (A4 m c) (A5 m c) (A6 m c)
      (A7 m c) (A8 m c) (A9 m c) (A10 m c) (A11 m c) (A12 m c) (A13 m c) (A14 m c) (A15 m c) (i 0) (i 1)
  rw [HostSide.v40 m c, HostSide.v41 m c, HostSide.v39 m c]
  exact Cert.Spec.kernelAt_eq_referenceAt (A0 m c) (Cert.Agg.aggOf (A0 m c) (A1 m c)) (A2 m c) (A3 m c) (A4 m c) (A5 m c) (A6 m c)
    (A7 m c) (A8 m c) (A9 m c) (A10 m c) (A11 m c) (A12 m c) (A13 m c) (A14 m c) (A15 m c)
    (V m c main_v14) (V m c main_v26) (V m c main_v30) (V m c main_v34) (V m c main_v38)
    r0 (Cert.Agg.aggOf_isReal _ _ r0) r2 r3 r4 r5 r6 r7 r8 r9 r10 r11 r12 r13 r14 p8 p14
    (HostSide.v14 m c _) (HostSide.v26 m c) (fun j => HostSide.v30 m c 0 j) (HostSide.v34 m c) (fun j => HostSide.v38 m c 0 j)
    (i 0) (i 1)

end Cert.KernelIdeal.KerValue

end
-- ==== Proof.RefRead.lean ====
/-
  The reference, read at one entry.

  The reference computes the aggregated messages, `h₀ = (1 + ε₀)·x + a`, and two layers
  `h ↦ relu ( ((h·W + b) − μ) · rsqrt(v + ε) · g + β )`, and ends with `relu (h₂ + x·R)`.  Read at row `n`, column `j`:
  a matrix product is the sum of products over the shared coordinate, a vector broadcast over the rows reads the
  vector at the column, a broadcast scalar reads the scalar, and the elementwise operations read their operands at
  the same entry — which is the formula `Cert.Spec.referenceOut`.  The aggregated messages are the same term the
  kernel's program computes (`Cert.Agg.aggOf`).
-/
import proofs.«126358_j90580860273090_2_alg».proof.Proof.Gen.ReferenceIdeal.Read
import proofs.«126358_j90580860273090_2_alg».proof.Proof.Agg
import proofs.«126358_j90580860273090_2_alg».proof.Proof.Spec

noncomputable section

namespace Cert.ReferenceIdeal.RefValue

open Cert.ReferenceIdeal Cert.ReferenceIdeal.Read Idealize.ShloMosaic Idealize.ShloMosaic.ValueIdx

/-- The reference's aggregated messages are the kernel program's: the same operations on the same arguments. -/
theorem agg_eq (x0 : (⟨S40000x128, .f32⟩ : BufTy).Contents (Elt Ideal)) (x1 : (⟨S2x640000, .i32⟩ : BufTy).Contents (Elt Ideal)) :
    val_main_v13 (F := Ideal) x0 x1 = Cert.Agg.aggOf x0 x1 := rfl

/-! ## A vector over the columns, broadcast over the rows, reads the vector at the column -/

theorem row_v20 (x : (⟨S256, .f32⟩ : BufTy).Contents (Elt Ideal)) (i : S40000x256.Idx) :
    val_main_v20 (F := Ideal) x i = x (ix1 (i 1)) := by
  rw [val_main_v20_apply, val_main_v19_apply]
  exact congrArg _ (funext fun a => Fin.ext (by match a with | ⟨0, _⟩ => rfl))

theorem row_v23 (x : (⟨S256, .f32⟩ : BufTy).Contents (Elt Ideal)) (i : S40000x256.Idx) :
    val_main_v23 (F := Ideal) x i = x (ix1 (i 1)) := by
  rw [val_main_v23_apply, val_main_v22_apply]
  exact congrArg _ (funext fun a => Fin.ext (by match a with | ⟨0, _⟩ => rfl))

theorem row_v29 (x : (⟨S256, .f32⟩ : BufTy).Contents (Elt Ideal)) (i : S40000x256.Idx) :
    val_main_v29 (F := Ideal) x i = (val_main_v27 (F := Ideal) x) (ix1 (i 1)) := by
  rw [val_main_v29_apply, val_main_v28_apply]
  exact congrArg _ (funext fun a => Fin.ext (by match a with | ⟨0, _⟩ => rfl))

theorem row_v32 (x : (⟨S256, .f32⟩ : BufTy).Contents (Elt Ideal)) (i : S40000x256.Idx) :
    val_main_v32 (F := Ideal) x i = x (ix1 (i 1)) := by
  rw [val_main_v32_apply, val_main_v31_apply]
  exact congrArg _ (funext fun a => Fin.ext (by match a with | ⟨0, _⟩ => rfl))

theorem row_v35 (x : (⟨S256, .f32⟩ : BufTy).Contents (Elt Ideal)) (i : S40000x256.Idx) :
    val_main_v35 (F := Ideal) x i = x (ix1 (i 1)) := by
  rw [val_main_v35_apply, val_main_v34_apply]
  exact congrArg _ (funext fun a => Fin.ext (by match a with | ⟨0, _⟩ => rfl))

theorem row_v40 (x : (⟨S256, .f32⟩ : BufTy).Contents (Elt Ideal)) (i : S40000x256.Idx) :
    val_main_v40 (F := Ideal) x i = x (ix1 (i 1)) := by
  rw [val_main_v40_apply, val_main_v39_apply]
  exact congrArg _ (funext fun a => Fin.ext (by match a with | ⟨0, _⟩ => rfl))

theorem row_v43 (x : (⟨S256, .f32⟩ : BufTy).Contents (Elt Ideal)) (i : S40000x256.Idx) :
    val_main_v43 (F := Ideal) x i = x (ix1 (i 1)) := by
  rw [val_main_v43_apply, val_main_v42_apply]
  exact congrArg _ (funext fun a => Fin.ext (by match a with | ⟨0, _⟩ => rfl))

theorem row_v49 (x : (⟨S256, .f32⟩ : BufTy).Contents (Elt Ideal)) (i : S40000x256.Idx) :
    val_main_v49 (F := Ideal) x i = (val_main_v47 (F := Ideal) x) (ix1 (i 1)) := by
  rw [val_main_v49_apply, val_main_v48_apply]
  exact congrArg _ (funext fun a => Fin.ext (by match a with | ⟨0, _⟩ => rfl))

theorem row_v52 (x : (⟨S256, .f32⟩ : BufTy).Contents (Elt Ideal)) (i : S40000x256.Idx) :
    val_main_v52 (F := Ideal) x i = x (ix1 (i 1)) := by
  rw [val_main_v52_apply, val_main_v51_apply]
  exact congrArg _ (funext fun a => Fin.ext (by match a with | ⟨0, _⟩ => rfl))

theorem row_v55 (x : (⟨S256, .f32⟩ : BufTy).Contents (Elt Ideal)) (i : S40000x256.Idx) :
    val_main_v55 (F := Ideal) x i = x (ix1 (i 1)) := by
  rw [val_main_v55_apply, val_main_v54_apply]
  exact congrArg _ (funext fun a => Fin.ext (by match a with | ⟨0, _⟩ => rfl))

/-! ## A matrix product reads the sum of products of the left factor's row and the right factor's column -/

theorem dot_v18 (x0 : (⟨S40000x128, .f32⟩ : BufTy).Contents (Elt Ideal)) (x1 : (⟨S2x640000, .i32⟩ : BufTy).Contents (Elt Ideal)) (x2 : (⟨S_, .f32⟩ : BufTy).Contents (Elt Ideal)) (x3 : (⟨S128x256, .f32⟩ : BufTy).Contents (Elt Ideal)) (i : S40000x256.Idx) :
    val_main_v18 (F := Ideal) x0 x1 x2 x3 i = ∑ k : Fin 128, val_main_v17 (F := Ideal) x0 x1 x2 (ix2 (i 0 : Fin 40000) k) * x3 (ix2 k (i 1 : Fin 256)) := by
  rw [val_main_v18_apply]
  refine Finset.sum_congr rfl fun k _ => ?_
  have el : lidx_main_v18 i k = ix2 (i 0 : Fin 40000) k := funext fun a => Fin.ext (by match a with | ⟨0, _⟩ => rfl | ⟨1, _⟩ => rfl)
  have er : ridx_main_v18 i k = ix2 k (i 1 : Fin 256) := funext fun a => Fin.ext (by match a with | ⟨0, _⟩ => rfl | ⟨1, _⟩ => rfl)
  rw [el, er]
  rfl

theorem dot_v38 (x0 : (⟨S40000x128, .f32⟩ : BufTy).Contents (Elt Ideal)) (x1 : (⟨S2x640000, .i32⟩ : BufTy).Contents (Elt Ideal)) (x2 : (⟨S_, .f32⟩ : BufTy).Contents (Elt Ideal)) (x3 : (⟨S128x256, .f32⟩ : BufTy).Contents (Elt Ideal)) (x4 x5 x6 x7 x8 : (⟨S256, .f32⟩ : BufTy).Contents (Elt Ideal)) (x9 : (⟨S256x256, .f32⟩ : BufTy).Contents (Elt Ideal)) (i : S40000x256.Idx) :
    val_main_v38 (F := Ideal) x0 x1 x2 x3 x4 x5 x6 x7 x8 x9 i = ∑ k : Fin 256, val_main_v37 (F := Ideal) x0 x1 x2 x3 x4 x5 x6 x7 x8 (ix2 (i 0 : Fin 40000) k) * x9 (ix2 k (i 1 : Fin 256)) := by
  rw [val_main_v38_apply]
  refine Finset.sum_congr rfl fun k _ => ?_
  have el : lidx_main_v38 i k = ix2 (i 0 : Fin 40000) k := funext fun a => Fin.ext (by match a with | ⟨0, _⟩ => rfl | ⟨1, _⟩ => rfl)
  have er : ridx_main_v38 i k = ix2 k (i 1 : Fin 256) := funext fun a => Fin.ext (by match a with | ⟨0, _⟩ => rfl | ⟨1, _⟩ => rfl)
  rw [el, er]
  rfl

theorem dot_v58 (x0 : (⟨S40000x128, .f32⟩ : BufTy).Contents (Elt Ideal)) (x15 : (⟨S128x256, .f32⟩ : BufTy).Contents (Elt Ideal)) (i : S40000x256.Idx) :
    val_main_v58 (F := Ideal) x0 x15 i = ∑ k : Fin 128, x0 (ix2 (i 0 : Fin 40000) k) * x15 (ix2 k (i 1 : Fin 256)) := by
  rw [val_main_v58_apply]
  refine Finset.sum_congr rfl fun k _ => ?_
  have el : lidx_main_v58 i k = ix2 (i 0 : Fin 40000) k := funext fun a => Fin.ext (by match a with | ⟨0, _⟩ => rfl | ⟨1, _⟩ => rfl)
  have er : ridx_main_v58 i k = ix2 k (i 1 : Fin 256) := funext fun a => Fin.ext (by match a with | ⟨0, _⟩ => rfl | ⟨1, _⟩ => rfl)
  rw [el, er]
  rfl

/-! ## The reference's result -/

/-- The reference's last stage is the reference formula of the arguments and the aggregated messages. -/
theorem result_eq (x0 : (⟨S40000x128, .f32⟩ : BufTy).Contents (Elt Ideal)) (x1 : (⟨S2x640000, .i32⟩ : BufTy).Contents (Elt Ideal)) (x2 : (⟨S_, .f32⟩ : BufTy).Contents (Elt Ideal)) (x3 : (⟨S128x256, .f32⟩ : BufTy).Contents (Elt Ideal)) (x4 x5 x6 x7 x8 : (⟨S256, .f32⟩ : BufTy).Contents (Elt Ideal)) (x9 : (⟨S256x256, .f32⟩ : BufTy).Contents (Elt Ideal)) (x10 x11 x12 x13 x14 : (⟨S256, .f32⟩ : BufTy).Contents (Elt Ideal)) (x15 : (⟨S128x256, .f32⟩ : BufTy).Contents (Elt Ideal)) :
    val_main_v60 (F := Ideal) x0 x1 x2 x3 x4 x5 x6 x7 x8 x9 x10 x11 x12 x13 x14 x15
      = Cert.Spec.referenceOut (N := 40000) x0 (Cert.Agg.aggOf x0 x1) x2 x3 x4 x5 x6 x7 x8 x9 x10 x11 x12 x13 x14 x15 := by
  funext i
  unfold Cert.Spec.referenceOut Cert.Spec.referenceAt
  simp only [val_main_v60_apply, val_main_v59_apply, val_main_v57_apply, val_main_v56_apply, val_main_v53_apply,
    val_main_v50_apply, val_main_v44_apply, val_main_v41_apply, dot_v38, val_main_v37_apply, val_main_v36_apply,
    val_main_v33_apply, val_main_v30_apply, val_main_v24_apply, val_main_v21_apply, dot_v18, val_main_v17_apply,
    val_main_v16_apply, val_main_v15_apply, val_main_v14_apply, val_main_cst_1_apply, dot_v58,
    row_v20, row_v23, row_v29, row_v32, row_v35, row_v40, row_v43, row_v49, row_v52, row_v55,
    val_main_v27_apply, val_main_v26_apply, val_main_v25_apply, val_main_cst_2_apply,
    val_main_v47_apply, val_main_v46_apply, val_main_v45_apply, val_main_cst_3_apply,
    val_main_call0_v0_apply, val_main_call0_cst_apply, val_main_call1_v0_apply, val_main_call1_cst_apply,
    val_main_call2_v0_apply, val_main_call2_cst_apply, agg_eq,
    Ideal.maximumf_def, Ideal.addf_def, Ideal.mulf_def, Ideal.subf_def, Ideal.hostUnary_rsqrt_def, Ideal.ofBits_def]

end Cert.ReferenceIdeal.RefValue

end
-- ==== Proof.lean ====
/-
  A graph-convolution block: node features `x`, an edge list, a scalar `ε₀`, and two linear layers each followed by a
  batch normalisation in inference form and a rectifier, with a linear residual:

    a      = the sum, over the edges into each node, of the source node's features
    h₀     = (1 + ε₀)·x + a
    h₁     = relu ( ((h₀·W₁ + b₁) − μ₁) · rsqrt(v₁ + ε) · g₁ + β₁ )
    h₂     = relu ( ((h₁·W₂ + b₂) − μ₂) · rsqrt(v₂ + ε) · g₂ + β₂ )
    result = relu ( h₂ + x·R ).

  The kernel folds each normalisation into its layer before the matrix product — the weights' column `j` scaled by
  `s[j] = g[j]·rsqrt(v[j] + ε)`, the bias replaced by `(b[j] − μ[j])·s[j] + β[j]` — and computes the three matrix
  products, the biases and the rectifiers block by block, 4000 rows at a time.  Over the extended reals a change of
  float format is the identity and a blocked product is the product, so the two programs differ exactly by moving
  the scale `s[j]` across a sum: distributivity, which holds there only away from the infinities.  The precondition
  gives real arguments and nonnegative variances, so `rsqrt(v[j] + ε)` is a real and every quantity is a real
  (`Proof/Spec.lean`); without nonnegative variances `s[j]` can be infinite and the two results differ.

  The pieces: `Proof/KerPay.lean` reads the kernel body at one entry; `Proof/KerBlocks.lean` assembles the ten
  blocks into one function of the arrays the region reads; `Proof/KerHost.lean` says what those arrays are;
  `Proof/RefRead.lean` reads the reference at one entry; `Proof/PreFacts.lean` reads the precondition back;
  `Proof/KerValue.lean` joins them.  The three frames are the generated ones; the idealization rewrote nothing.
-/
import proofs.«126358_j90580860273090_2_alg».proof.Defs
import proofs.«126358_j90580860273090_2_alg».proof.Proof.Gen.Kernel
import proofs.«126358_j90580860273090_2_alg».proof.Proof.Gen.Kernel.Skeleton
import proofs.«126358_j90580860273090_2_alg».proof.Proof.Gen.Kernel.Launch
import proofs.«126358_j90580860273090_2_alg».proof.Proof.Gen.Kernel.Points
import proofs.«126358_j90580860273090_2_alg».proof.Proof.Gen.Kernel.Frame
import proofs.«126358_j90580860273090_2_alg».proof.Proof.Gen.KernelIdeal
import proofs.«126358_j90580860273090_2_alg».proof.Proof.Gen.KernelIdeal.Skeleton
import proofs.«126358_j90580860273090_2_alg».proof.Proof.Gen.KernelIdeal.Launch
import proofs.«126358_j90580860273090_2_alg».proof.Proof.Gen.KernelIdeal.Points
import proofs.«126358_j90580860273090_2_alg».proof.Proof.Gen.KernelIdeal.Frame
import proofs.«126358_j90580860273090_2_alg».proof.Proof.Gen.ReferenceIdeal
import proofs.«126358_j90580860273090_2_alg».proof.Proof.Gen.Pre_finite_inputs
import proofs.«126358_j90580860273090_2_alg».proof.Proof.Gen.KernelIdeal.Value
import proofs.«126358_j90580860273090_2_alg».proof.Proof.Gen.ReferenceIdeal.Run
import proofs.«126358_j90580860273090_2_alg».proof.Proof.Gen.ReferenceIdeal.Read
import proofs.«126358_j90580860273090_2_alg».proof.Proof.KerValue
import proofs.«126358_j90580860273090_2_alg».proof.Proof.RefRead
import Idealize.ShloMosaic.Adequacy
import Idealize.ShloMosaic.Init

noncomputable section

namespace Cert.Proof

open Idealize.ShloMosaic Idealize.SL.Sem

attribute [local instance] Cert.Pre_finite_inputs.Gen.facts

/-- The word-level kernel runs and leaves its arguments unchanged: the generated frame. -/
theorem frame_p : Cert.frame_Kernel := fun m ρ _ => Cert.Kernel.Gen.frame m ρ

/-- The idealized kernel runs and leaves its arguments unchanged: the generated frame. -/
theorem frame_pi : Cert.frame_KernelIdeal := fun m ρ _ => Cert.KernelIdeal.Gen.frame m ρ

/-- The idealized reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the same result array: the reference's formula of the arguments. -/
theorem algebraic : Cert.algebraic_KernelIdeal_ReferenceIdeal := by
  intro m ρ m' ρ' hpre hagree
  refine ⟨fun c => Cert.KernelIdeal.KerValue.result m c, ?_, ?_⟩
  · exact (θ_run Cert.KernelIdeal.defs _ _).mono
      (fun r h c => ⟨(h c).1.trans ((Cert.KernelIdeal.Blocks.final m c).trans (Cert.KernelIdeal.KerValue.G_eq m c (hpre c))), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v60_eq, Cert.ReferenceIdeal.RefValue.result_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
